-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_arg5 : FVec F S128x128 .f32) (main_arg6 : FVec F S128 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S1024x128 .f32) (main_arg1 : FVec F S128x128 .f32) (main_arg2 : FVec F S128 .f32) (main_arg3 : FVec F S128x1 .f32) (main_arg4 : FVec F S1 .f32) (main_arg5 : FVec F S128x128 .f32) (main_arg6 : FVec F S128 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg3
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg4 main_arg5 main_arg6 main_v13 main_v16
-- ==== Kernel.lean ====
abbrev S1024x128 : Shape := ⟨2, ![1024, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1 : Shape := ⟨2, ![1, 1]⟩
abbrev S1024x1024 : Shape := ⟨2, ![1024, 1024]⟩
abbrev S64x128 : Shape := ⟨2, ![64, 128]⟩
abbrev S64x1x128 : Shape := ⟨3, ![64, 1, 128]⟩
abbrev S1x128x128 : Shape := ⟨3, ![1, 128, 128]⟩
abbrev S64x128x128 : Shape := ⟨3, ![64, 128, 128]⟩
abbrev S8192x128 : Shape := ⟨2, ![8192, 128]⟩
abbrev S1x1x128 : Shape := ⟨3, ![1, 1, 128]⟩
abbrev S1024 : Shape := ⟨1, ![1024]⟩
abbrev S1024x1 : Shape := ⟨2, ![1024, 1]⟩
abbrev S1x1024 : Shape := ⟨2, ![1, 1024]⟩
abbrev S1x128 : Shape := ⟨2, ![1, 128]⟩

abbrev nBuf : Space → Nat
  | .hbm => 14
  | .vmem => 15
  | .smem => 0
  | _ => 0

abbrev bufTy : (tb : Table) → Fin (tcTables nBuf tb) → BufTy
  | .hbm, ⟨0, _⟩ => ⟨S1024x128, .f32⟩
  | .hbm, ⟨1, _⟩ => ⟨S128x128, .f32⟩
  | .hbm, ⟨2, _⟩ => ⟨S128, .f32⟩
  | .hbm, ⟨3, _⟩ => ⟨S128x1, .f32⟩
  | .hbm, ⟨4, _⟩ => ⟨S1, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S1x1, .f32⟩
  | .hbm, ⟨9, _⟩ => ⟨S1024x128, .bf16⟩
  | .hbm, ⟨10, _⟩ => ⟨S128x128, .bf16⟩
  | .hbm, ⟨11, _⟩ => ⟨S128, .bf16⟩
  | .hbm, ⟨12, _⟩ => ⟨S1024x1024, .f32⟩
  | .hbm, ⟨13, _⟩ => ⟨S1024x128, .f32⟩
  | .local _ .vmem, ⟨0, _⟩ => ⟨S64x128, .bf16⟩
  | .local _ .vmem, ⟨1, _⟩ => ⟨S64x128, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128, .f32⟩
  | .local _ .vmem, ⟨6, _⟩ => ⟨S128, .bf16⟩
  | .local _ .vmem, ⟨7, _⟩ => ⟨S1x1, .f32⟩
  | .local _ .vmem, ⟨8, _⟩ => ⟨S64x128, .f32⟩
  | .local _ .vmem, ⟨9, _⟩ => ⟨S64x128, .f32⟩
  | .local _ .vmem, ⟨10, _⟩ => ⟨S1024x1024, .f32⟩
  | .local _ .vmem, ⟨11, _⟩ => ⟨S1024x128, .f32⟩
  | .local _ .vmem, ⟨12, _⟩ => ⟨S128x128, .f32⟩
  | .local _ .vmem, ⟨13, _⟩ => ⟨S128, .f32⟩
  | .local _ .vmem, ⟨14, _⟩ => ⟨S1024x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  shapeCasts_S128x1_S128 : S128x1.ShapeCasts S128
  shapeCasts_S1_S1x1 : S1.ShapeCasts S1x1
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S64x128_S64x1x128 : S64x128.ShapeCasts S64x1x128
  shapeCasts_S128x128_S1x128x128 : S128x128.ShapeCasts S1x128x128
  broadcasts_S64x1x128_S64x128x128 : S64x1x128.Broadcasts S64x128x128
  broadcasts_S1x128x128_S64x128x128 : S1x128x128.Broadcasts S64x128x128
  shapeCasts_S64x128x128_S8192x128 : S64x128x128.ShapeCasts S8192x128
  shapeCasts_S8192x128_S64x128x128 : S8192x128.ShapeCasts S64x128x128
  inb_S128_S128_0 : ∀ a, (![0] : Fin 1 → Nat) a + S128.size a ≤ S128.size a
  h_S128 : 0 < S128.numel
  shapeCasts_S128_S1x1x128 : S128.ShapeCasts S1x1x128
  broadcasts_S1x1x128_S64x128x128 : S1x1x128.Broadcasts S64x128x128
  shapeCasts_S128_S128 : S128.ShapeCasts S128
  reduces_S64x128x128_S64x128 : S64x128x128.Reduces [2] S64x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x128 : S1x1.Broadcasts S64x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1024x128_S1024x128_0_0 : ∀ a, (![0, 0] : Fin 2 → Nat) a + S1024x128.size a ≤ S1024x128.size a
  h_S1024x128 : 0 < S1024x128.numel
  shapeCasts_S128_S1x128 : S128.ShapeCasts S1x128
  broadcasts_S1x128_S1024x128 : S1x128.Broadcasts S1024x128
  dot_S8192x128_S128x128_S8192x128_1_0_0_1_n_n_wf : DotDims.WF S8192x128 S128x128 S8192x128 [1] [0] [0] [1] [] []
  dot_S1024x128_S128x128_S1024x128_1_0_0_1_n_n_wf : DotDims.WF S1024x128 S128x128 S1024x128 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S1024x128.size a
  hwx0_0 : ∀ i : grid0.Coords, EltTy.bits .bf16 = 32 ∨ (Rect.block (s := S1024x128) S64x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S1024x128.size a
  hwx0_1 : ∀ i : grid0.Coords, EltTy.bits .bf16 = 32 ∨ (Rect.block (s := S1024x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .bf16 = 32 ∨ (Rect.block (s := S128) S128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S1024x1024.size a
  hwx0_6 : ∀ i : grid0.Coords, EltTy.bits .f32 = 32 ∨ (Rect.block (s := S1024x1024) S64x128.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S1024x1024.size a
  hwx1_0 : ∀ i : grid1.Coords, EltTy.bits .f32 = 32 ∨ (Rect.block (s := S1024x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S1024x128.size a
  hwx1_1 : ∀ i : grid1.Coords, EltTy.bits .f32 = 32 ∨ (Rect.block (s := S1024x128) S1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S1024x128.size a
  hwx1_4 : ∀ i : grid1.Coords, EltTy.bits .f32 = 32 ∨ (Rect.block (s := S1024x128) S1024x128.size (cc1_transform_4 i) (hinb1_4 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_v2) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S64x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v5) S1024x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1024x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1024x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1024x128 : Shape := ⟨2, ![1024, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1024x1x128 : Shape := ⟨3, ![1024, 1, 128]⟩
abbrev S1x1024x128 : Shape := ⟨3, ![1, 1024, 128]⟩
abbrev S1024x1024x128 : Shape := ⟨3, ![1024, 1024, 128]⟩
abbrev S1x1x128 : Shape := ⟨3, ![1, 1, 128]⟩
abbrev S_ : Shape := ⟨0, ![]⟩
abbrev S1024x1024x1 : Shape := ⟨3, ![1024, 1024, 1]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S1x128 : Shape := ⟨2, ![1, 128]⟩

abbrev nBuf : Space → Nat
  | .hbm => 54
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S128x128, .f32⟩
  | .hbm, ⟨2, _⟩ => ⟨S128, .f32⟩
  | .hbm, ⟨3, _⟩ => ⟨S128x1, .f32⟩
  | .hbm, ⟨4, _⟩ => ⟨S1, .f32⟩
  | .hbm, ⟨5, _⟩ => ⟨S128x128, .f32⟩
  | .hbm, ⟨6, _⟩ => ⟨S128, .f32⟩
  | .hbm, ⟨7, _⟩ => ⟨S1024x1x128, .f32⟩
  | .hbm, ⟨8, _⟩ => ⟨S1x1024x128, .f32⟩
  | .hbm, ⟨9, _⟩ => ⟨S1024x1024x128, .f32⟩
  | .hbm, ⟨10, _⟩ => ⟨S1024x1024x128, .f32⟩
  | .hbm, ⟨11, _⟩ => ⟨S1024x1024x128, .f32⟩
  | .hbm, ⟨12, _⟩ => ⟨S1024x1024x128, .f32⟩
  | .hbm, ⟨13, _⟩ => ⟨S1024x1024x128, .f32⟩
  | .hbm, ⟨14, _⟩ => ⟨S1x1x128, .f32⟩
  | .hbm, ⟨15, _⟩ => ⟨S1024x1024x128, .f32⟩
  | .hbm, ⟨16, _⟩ => ⟨S1024x1024x128, .f32⟩
  | .hbm, ⟨17, _⟩ => ⟨S_, .f32⟩
  | .hbm, ⟨18, _⟩ => ⟨S1024x1024x128, .f32⟩
  | .hbm, ⟨19, _⟩ => ⟨S1024x1024x128, .f32⟩
  | .hbm, ⟨20, _⟩ => ⟨S1024x1024x1, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S_, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S1024x1, .f32⟩
  | .hbm, ⟨37, _⟩ => ⟨S1024x1024, .f32⟩
  | .hbm, ⟨38, _⟩ => ⟨S1024x1024, .f32⟩
  | .hbm, ⟨39, _⟩ => ⟨S1x1024, .f32⟩
  | .hbm, ⟨40, _⟩ => ⟨S1024x1024, .f32⟩
  | .hbm, ⟨41, _⟩ => ⟨S1024x1024, .f32⟩
  | .hbm, ⟨42, _⟩ => ⟨S1024x128, .f32⟩
  | .hbm, ⟨43, _⟩ => ⟨S1024x128, .f32⟩
  | .hbm, ⟨44, _⟩ => ⟨S1x128, .f32⟩
  | .hbm, ⟨45, _⟩ => ⟨S1024x128, .f32⟩
  | .hbm, ⟨46, _⟩ => ⟨S1024x128, .f32⟩
  | .hbm, ⟨47, _⟩ => ⟨S_, .f32⟩
  | .hbm, ⟨48, _⟩ => ⟨S1024x128, .f32⟩
  | .hbm, ⟨49, _⟩ => ⟨S1024x128, .i1⟩
  | .hbm, ⟨50, _⟩ => ⟨S_, .f32⟩
  | .hbm, ⟨51, _⟩ => ⟨S1024x128, .f32⟩
  | .hbm, ⟨52, _⟩ => ⟨S1024x128, .f32⟩
  | .hbm, ⟨53, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]

class Facts₀ : Prop where
  bcast_S1024x128_S1024x1x128_0_2 : S1024x128.BroadcastsInDim S1024x1x128 (![0, 2] : Fin 2 → Fin S1024x1x128.rank)
  bcast_S1024x128_S1x1024x128_1_2 : S1024x128.BroadcastsInDim S1x1024x128 (![1, 2] : Fin 2 → Fin S1x1024x128.rank)
  bcast_S1024x1x128_S1024x1024x128_0_1_2 : S1024x1x128.BroadcastsInDim S1024x1024x128 (![0, 1, 2] : Fin 3 → Fin S1024x1024x128.rank)
  bcast_S1x1024x128_S1024x1024x128_0_1_2 : S1x1024x128.BroadcastsInDim S1024x1024x128 (![0, 1, 2] : Fin 3 → Fin S1024x1024x128.rank)
  bcast_S128_S1x1x128_2 : S128.BroadcastsInDim S1x1x128 (![2] : Fin 1 → Fin S1x1x128.rank)
  bcast_S1x1x128_S1024x1024x128_0_1_2 : S1x1x128.BroadcastsInDim S1024x1024x128 (![0, 1, 2] : Fin 3 → Fin S1024x1024x128.rank)
  bcast_S_S1024x1024x128 : S_.BroadcastsInDim S1024x1024x128 (![] : Fin 0 → Fin S1024x1024x128.rank)
  shapeCasts_S1024x1024x1_S1024x1024 : S1024x1024x1.ShapeCasts S1024x1024
  shapeCasts_S1_S_ : S1.ShapeCasts S_
  bcast_S_S1024x1024 : S_.BroadcastsInDim S1024x1024 (![] : Fin 0 → Fin S1024x1024.rank)
  reducesTo_S1024x1024_S1024_d1 : S1024x1024.ReducesTo [1] S1024
  h_S_ : 0 < S_.numel
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  dot_S1024x1024x128_S128x128_S1024x1024x128_2_0_01_1_n_n_wf : DotDims.WF S1024x1024x128 S128x128 S1024x1024x128 [2] [0] [0, 1] [1] [] []
  dot_S1024x1024x128_S128x1_S1024x1024x1_2_0_01_1_n_n_wf : DotDims.WF S1024x1024x128 S128x1 S1024x1024x1 [2] [0] [0, 1] [1] [] []
  dot_S1024x128_S128x128_S1024x128_1_0_0_1_n_n_wf : DotDims.WF S1024x128 S128x128 S1024x128 [1] [0] [0] [1] [] []
  dot_S1024x1024_S1024x128_S1024x128_1_0_0_1_n_n_wf : DotDims.WF S1024x1024 S1024x128 S1024x128 [1] [0] [0] [1] [] []

variable [Facts₀]

def dot_S1024x1024x128_S128x128_S1024x1024x128_2_0_01_1_n_n : DotDims S1024x1024x128 S128x128 S1024x1024x128 where
  lhsContracting := [2]
  rhsContracting := [0]
  lhsNonContracting := [0, 1]
  rhsNonContracting := [1]
  lhsBatch := []
  rhsBatch := []
  wf := dot_S1024x1024x128_S128x128_S1024x1024x128_2_0_01_1_n_n_wf
def dot_S1024x1024x128_S128x1_S1024x1024x1_2_0_01_1_n_n : DotDims S1024x1024x128 S128x1 S1024x1024x1 where
  lhsContracting := [2]
  rhsContracting := [0]
  lhsNonContracting := [0, 1]
  rhsNonContracting := [1]
  lhsBatch := []
  rhsBatch := []
  wf := dot_S1024x1024x128_S128x1_S1024x1024x1_2_0_01_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

class Facts : Prop extends Facts₀ where

variable [Facts]
-- ==== Proof.RegionAdjB.lean ====
/-
  The first kernel region of `Kernel` at one grid point, for any float instance: what the body is handed and what it
  leaves.

  The region tiles the [1024, 1024] matrix of edge weights into [64, 128] blocks over a 16 × 8 grid.  At point (a, b)
  the body reads rows 64a … 64a+63 of the node features through one window and rows 128b … 128b+127 of THE SAME
  array through a second window, the perceptron's parameters through four whole-array windows, and stores one
  [64, 128] block: the body's single payload of the six loads.  An input window's buffer holds its block of the
  array at every point, fetched there or kept from the point before (the block index did not move).  The body's
  triple is run symbolically over the body's skeleton of loads and one store.
-/
import proofs.«135860_j77386720739714_2_alg».proof.Proof.Gen.Kernel.Launch
import proofs.«135860_j77386720739714_2_alg».proof.Proof.Gen.Kernel.Skeleton
import proofs.«135860_j77386720739714_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with, per core: a parameter
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or kept from the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or kept from the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or kept from the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, fetched there or kept from the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every point, fetched there or kept from the point before. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current buffer holds its block at every point, fetched there or kept from the point before. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take a whole buffer -/
abbrev r64x128_0 : Rect S64x128 := Rect.unit (s := S64x128) ![0, 0] S64x128.size inb_S64x128_S64x128_0_0
abbrev r128x128_0 : Rect S128x128 := Rect.unit (s := S128x128) ![0, 0] S128x128.size inb_S128x128_S128x128_0_0
abbrev r128_0 : Rect S128 := Rect.unit (s := S128) ![0] S128.size inb_S128_S128_0
abbrev r1x1_0 : Rect S1x1 := Rect.unit (s := S1x1) ![0, 0] S1x1.size inb_S1x1_S1x1_0_0

/-! ## What the body leaves in the output window's buffer -/

/-- The output buffer after the body: its one store, of the payload of the loads. -/
def out0_6 (x0 : Vec F S64x128 .bf16) (x1 : Vec F S128x128 .bf16) (x2 : Vec F S128x128 .bf16) (x3 : Vec F S128 .f32) (x4 : Vec F S128 .bf16) (x5 : Vec F S1x1 .f32) : Vec F S64x128 .f32 :=
  View.canon [⟨r64x128_0, k0_pay1 (View.ld x0 r64x128_0) (View.ld x1 r128x128_0) (View.ld x2 r128x128_0) (View.ld x3 r128_0) (View.ld x4 r128_0) (View.ld x5 r1x1_0)⟩]

/-- The store covers the buffer. -/
theorem cover0_6 (p0 : Vec F S64x128 .f32) (y : S64x128.Idx) :
    ∃ pc ∈ ([⟨r64x128_0, p0⟩] : List (View.Piece (Elt F) S64x128 .f32)), y ∈ pc.1.set :=
  View.cover_of_tiled [⟨r64x128_0, p0⟩] S64x128.size (by rfl) y

/-! ## The body's triple -/

set_option maxHeartbeats 4000000 in
/-- The body on whole staging memrefs, the inputs' at contents `xW` and the output's at anything, runs to the
    continuation holding the inputs' as they were and the output's at the store's canon. -/
theorem sound_kernel0 (c : Dev nD) (E : Set ℕ) (i : grid0.Coords) (a0 : Memref sig .tc .vmem S64x128 .bf16) (ha0 : a0.IsWhole) (a1 : Memref sig .tc .vmem S128x128 .bf16) (ha1 : a1.IsWhole) (a2 : Memref sig .tc .vmem S128x128 .bf16) (ha2 : a2.IsWhole) (a3 : Memref sig .tc .vmem S128 .f32) (ha3 : a3.IsWhole) (a4 : Memref sig .tc .vmem S128 .bf16) (ha4 : a4.IsWhole) (a5 : Memref sig .tc .vmem S1x1 .f32) (ha5 : a5.IsWhole) (a6 : Memref sig .tc .vmem S64x128 .f32) (ha6 : a6.IsWhole)
    (x0 : Vec F S64x128 .bf16) (x1 : Vec F S128x128 .bf16) (x2 : Vec F S128x128 .bf16) (x3 : Vec F S128 .f32) (x4 : Vec F S128 .bf16) (x5 : Vec F S1x1 .f32) (Kc : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out0_6 x0 x1 x2 x3 x4 x5)) -∗ Kc ⟨⟩))
      ⊢ wp frame (wpE (defs₀ (F := F)) Variants.none c none) E (cc0__adj_kernel i a0 ha0 a1 ha1 a2 ha2 a3 ha3 a4 ha4 a5 ha5 a6 ha6) Kc := by
  simp only [cc0__adj_kernel_eq_skeleton]; unfold cc0__adj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data on core `c`: the arrays as the region finds them; after the body at point `t` each input's buffer at
    its block and the output's at the store's canon of the input blocks; the invariant the scoped rest and the
    generator register, untouched; nothing owed; the two windows on the one feature array hold it by halves. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation at a generic point -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.RegionGcnB.lean ====
/-
  The second kernel region of `Kernel`, for any float instance: what the body is handed and what it leaves.

  The region has one grid point and whole-array windows: the [1024, 1024] matrix of edge weights the first region
  wrote, the node features, the layer's weight and bias.  The body loads the four, computes, and stores the whole
  [1024, 128] output: the body's single payload of the four loads.  The body's triple is run symbolically over the
  body's skeleton of loads and one store.
-/
import proofs.«135860_j77386720739714_2_alg».proof.Proof.Gen.Kernel.Launch
import proofs.«135860_j77386720739714_2_alg».proof.Proof.Gen.Kernel.Skeleton
import proofs.«135860_j77386720739714_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with, per core: a parameter
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or kept from the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or kept from the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or kept from the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or kept from the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take a whole buffer -/
abbrev r1024x1024_1 : Rect S1024x1024 := Rect.unit (s := S1024x1024) ![0, 0] S1024x1024.size inb_S1024x1024_S1024x1024_0_0
abbrev r1024x128_1 : Rect S1024x128 := Rect.unit (s := S1024x128) ![0, 0] S1024x128.size inb_S1024x128_S1024x128_0_0
abbrev r128x128_1 : Rect S128x128 := Rect.unit (s := S128x128) ![0, 0] S128x128.size inb_S128x128_S128x128_0_0
abbrev r128_1 : Rect S128 := Rect.unit (s := S128) ![0] S128.size inb_S128_S128_0

/-! ## What the body leaves in the output window's buffer -/

/-- The output buffer after the body: its one store, of the payload of the loads. -/
def out1_4 (x0 : Vec F S1024x1024 .f32) (x1 : Vec F S1024x128 .f32) (x2 : Vec F S128x128 .f32) (x3 : Vec F S128 .f32) : Vec F S1024x128 .f32 :=
  View.canon [⟨r1024x128_1, k1_pay1 (View.ld x0 r1024x1024_1) (View.ld x1 r1024x128_1) (View.ld x2 r128x128_1) (View.ld x3 r128_1)⟩]

/-- The store covers the buffer. -/
theorem cover1_4 (p0 : Vec F S1024x128 .f32) (y : S1024x128.Idx) :
    ∃ pc ∈ ([⟨r1024x128_1, p0⟩] : List (View.Piece (Elt F) S1024x128 .f32)), y ∈ pc.1.set :=
  View.cover_of_tiled [⟨r1024x128_1, p0⟩] S1024x128.size (by rfl) y

/-! ## The body's triple -/

set_option maxHeartbeats 4000000 in
/-- The body on whole staging memrefs, the inputs' at contents `xW` and the output's at anything, runs to the
    continuation holding the inputs' as they were and the output's at the store's canon. -/
theorem sound_kernel1 (c : Dev nD) (E : Set ℕ) (i : grid1.Coords) (a0 : Memref sig .tc .vmem S1024x1024 .f32) (ha0 : a0.IsWhole) (a1 : Memref sig .tc .vmem S1024x128 .f32) (ha1 : a1.IsWhole) (a2 : Memref sig .tc .vmem S128x128 .f32) (ha2 : a2.IsWhole) (a3 : Memref sig .tc .vmem S128 .f32) (ha3 : a3.IsWhole) (a4 : Memref sig .tc .vmem S1024x128 .f32) (ha4 : a4.IsWhole)
    (x0 : Vec F S1024x1024 .f32) (x1 : Vec F S1024x128 .f32) (x2 : Vec F S128x128 .f32) (x3 : Vec F S128 .f32) (Kc : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ (∃ d, owns (c : Thread nD τ) a4 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare (out1_4 x0 x1 x2 x3)) -∗ Kc ⟨⟩))
      ⊢ wp frame (wpE (defs₀ (F := F)) Variants.none c none) E (cc1__gcn_kernel i a0 ha0 a1 ha1 a2 ha2 a3 ha3 a4 ha4) Kc := by
  simp only [cc1__gcn_kernel_eq_skeleton]; unfold cc1__gcn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data on core `c`: the arrays as the region finds them; after the body at point `t` each input's buffer at
    its block and the output's at the store's canon of the input blocks; the invariant the scoped rest and the
    generator register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨0, _⟩ => fullShare
    | ⟨1, _⟩ => fullShare
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation at a generic point -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 1000000 in
/-- The body at any point: the inputs' memrefs hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.RunB.lean ====
/-
  The run of `Kernel`'s @main from the launch to the return, for any float instance: five host lines (two reshapes,
  three changes of float format), the first kernel region, the second kernel region.

  Between two items a core holds every buffer that outlives a region at a named valuation: the launch memory, then the
  host lines' results folded over it, then the matrix of edge weights at what the first region's write-backs leave,
  then the layer's output at what the second region's write-back leaves.  A region takes its windows' arrays out of
  that state at entry and puts them back at exit.  In the first region two windows read ONE array (the node features in
  the narrow format): the array's full share is cut into its two halves at entry, one per window, and the halves are
  joined again at exit; no other window there shares an array.  Every weakly fair execution then terminates, and the
  final memory holds every such buffer at the last valuation; the argument arrays come out as launched because no host
  line and no write-back touches them.
-/
import proofs.«135860_j77386720739714_2_alg».proof.Proof.RegionAdjB
import proofs.«135860_j77386720739714_2_alg».proof.Proof.RegionGcnB
import proofs.«135860_j77386720739714_2_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first region's arrays among a core's buffers -/

section Arrays0

variable (V : (c : Dev nD) → (b : Ref sig .tc) → Buf (Elt F) ((c : Thread nD τ).loc b))

/-- The six distinct buffers behind the first region's seven windows, one by one. -/
theorem arrBufs0_eq (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_v2) ↦{fullShare} Vc main_v2) ∗ (((c : Thread nD τ).loc main_v3) ↦{fullShare} Vc main_v3)
          ∗ (((c : Thread nD τ).loc main_arg2) ↦{fullShare} Vc main_arg2) ∗ (((c : Thread nD τ).loc main_v4) ↦{fullShare} Vc main_v4)
          ∗ (((c : Thread nD τ).loc main_v1) ↦{fullShare} Vc main_v1) ∗ (((c : Thread nD τ).loc main_v5) ↦{fullShare} Vc main_v5)) := by
  unfold Pipeline.arrBufs
  exact bigSep_eq_bigSepL_of_eq [main_v2, main_v3, main_arg2, main_v4, main_v1, main_v5] (by decide) (by decide) _

/-- The proof data's arrays, window by window: the two windows on the feature array hold its two halves. -/
theorem arrays0_eq (c : Dev nD) (Fw : (w : Fin cfg0.W) → Buf (Elt F) ((cfg0.win w).arr.view.loc (c.tc : Thread nD τ))) :
    ((dat0 V c).arrays Fw : sProp 𝕄)
      = iprop((((c : Thread nD τ).loc main_v2) ↦{fullShare.left} Fw 0) ∗ (((c : Thread nD τ).loc main_v2) ↦{fullShare.right} Fw 1)
          ∗ (((c : Thread nD τ).loc main_v3) ↦{fullShare} Fw 2) ∗ (((c : Thread nD τ).loc main_arg2) ↦{fullShare} Fw 3)
          ∗ (((c : Thread nD τ).loc main_v4) ↦{fullShare} Fw 4) ∗ (((c : Thread nD τ).loc main_v1) ↦{fullShare} Fw 5)
          ∗ (((c : Thread nD τ).loc main_v5) ↦{fullShare} Fw 6)) := by
  unfold Dat.arrays
  rw [bigSep_W0, (arr_whole0 0).set_eq_univ, (arr_whole0 2).set_eq_univ, (arr_whole0 3).set_eq_univ,
    (arr_whole0 4).set_eq_univ, (arr_whole0 5).set_eq_univ, (arr_whole0 6).set_eq_univ]
  rfl

/-- ENTRY: a core's buffers at the entry contents are the first region's arrays at them — the feature array cut into
    its two halves, one per window — and the buffers no window touches. -/
theorem entry0 (c : Dev nD) :
    (unscopedBufs (Ix := Unit) (Name := ℕ) (U := UR sig nD τ) (Lvl := ℕ) c (V c) : sProp 𝕄)
      ⊢ iprop((dat0 V c).arrays ((dat0 V c).arrAt · 0)
          ∗ Pipeline.unscopedRest (Ix := Unit) (Name := ℕ) (U := UR sig nD τ) (Lvl := ℕ) spec0 c (V c)) := by
  rw [Pipeline.unscopedBufs_split₀ cfgs 0 winFacts₀0.arr_unscoped c (V c)]
  refine sep_mono ?_ .rfl
  show (Pipeline.arrBufs (Ix := Unit) (Name := ℕ) (U := UR sig nD τ) (Lvl := ℕ) spec0 c (V c) : sProp 𝕄) ⊢ _
  rw [arrBufs0_eq, arrays0_eq]
  iintro ⟨H2, H3, Ha, H4, H1, H5⟩
  ihave H2' := (pointsTo_share (PosShare.mem_left_op_right fullShare)).1 $$ H2
  icases H2' with ⟨H2l, H2r⟩
  isplitl [H2l]; · iexact H2l
  isplitl [H2r]; · iexact H2r
  isplitl [H3]; · iexact H3
  isplitl [Ha]; · iexact Ha
  isplitl [H4]; · iexact H4
  isplitl [H1]; · iexact H1
  iexact H5

/-- EXIT: the arrays as the region leaves them — the inputs as entered, the halves of the feature array joined, the
    edge-weight matrix at its written-back contents — and the untouched buffers are a core's buffers at any valuation
    that has the matrix there and agrees with the entry contents elsewhere. -/
theorem exit0 (c : Dev nD) (V' : (b : Ref sig .tc) → Buf (Elt F) ((c : Thread nD τ).loc b))
    (h5 : V' main_v5 = (dat0 V c).arrAt 6 cfg0.N) (hrest : ∀ b : Ref sig .tc, b ≠ main_v5 → V' b = V c b) :
    iprop((dat0 V c).arrays ((dat0 V c).arrAt · cfg0.N)
        ∗ Pipeline.unscopedRest (Ix := Unit) (Name := ℕ) (U := UR sig nD τ) (Lvl := ℕ) spec0 c (V c))
      ⊢ (unscopedBufs (Ix := Unit) (Name := ℕ) (U := UR sig nD τ) (Lvl := ℕ) c V' : sProp 𝕄) := by
  rw [Pipeline.unscopedBufs_split₀ cfgs 0 winFacts₀0.arr_unscoped c V']
  refine sep_mono ?_ (Entails.of_eq ?_)
  · show _ ⊢ (Pipeline.arrBufs (Ix := Unit) (Name := ℕ) (U := UR sig nD τ) (Lvl := ℕ) spec0 c V' : sProp 𝕄)
    rw [arrBufs0_eq, arrays0_eq, h5, hrest main_v2 (by decide), hrest main_v3 (by decide), hrest main_arg2 (by decide),
      hrest main_v4 (by decide), hrest main_v1 (by decide),
      (dat0 V c).arrAt_in 0 rfl, (dat0 V c).arrAt_in 1 rfl, (dat0 V c).arrAt_in 2 rfl, (dat0 V c).arrAt_in 3 rfl,
      (dat0 V c).arrAt_in 4 rfl, (dat0 V c).arrAt_in 5 rfl]
    iintro ⟨H2l, H2r, H3, Ha, H4, H1, H5⟩
    isplitl [H2l H2r]
    · iapply (pointsTo_share (PosShare.mem_left_op_right fullShare)).2
      isplitl [H2l]; · iexact H2l
      iexact H2r
    isplitl [H3]; · iexact H3
    isplitl [Ha]; · iexact Ha
    isplitl [H4]; · iexact H4
    isplitl [H1]; · iexact H1
    iexact H5
  · unfold Pipeline.unscopedRest
    exact bigSep_congr fun b hb => by
      rw [hrest b (fun e => (Finset.mem_sdiff.mp hb).2 (Finset.mem_image.mpr ⟨6, Finset.mem_univ _, e ▸ rfl⟩))]

end Arrays0

/-! ## The buffer contents at each boundary: a fold through @main -/

variable (m : (ℓ : Loc nD τ sig) → Buf (Elt F) ℓ) (ρ : Dev nD → PrngReg)

/-- Core `c`'s buffers at launch. -/
abbrev M0 : Dev nD → Valuation τ sig (Elt F) := fun c b => (s₀ m ρ).mem ((c : Dev nD), b)
/-- After the five host lines: the first region's entry. -/
abbrev M1 : Dev nD → Valuation τ sig (Elt F) := fun c => StableHlo.after hostOps0 (M0 m ρ c)
/-- The same read at the TensorCore's references. -/
abbrev E1 : (c : Dev nD) → (b : Ref sig .tc) → Buf (Elt F) ((c : Thread nD τ).loc b) := fun c b => M1 m ρ c b
/-- At the first region's exit: the matrix of edge weights at what the write-backs leave, every other buffer as entered. -/
def M2 (c : Dev nD) : Valuation τ sig (Elt F) :=
  Function.update (M1 m ρ c) (Proc.devRef .tc main_v5) ((dat0 (E1 m ρ) c).arrAt 6 cfg0.N)
abbrev E2 : (c : Dev nD) → (b : Ref sig .tc) → Buf (Elt F) ((c : Thread nD τ).loc b) := fun c b => M2 m ρ c b
/-- At the second region's exit: the layer's output at what the write-back leaves, every other buffer as entered. -/
def M3 (c : Dev nD) : Valuation τ sig (Elt F) :=
  Function.update (M2 m ρ c) (Proc.devRef .tc main_v6) ((dat1 (E2 m ρ) c).arrAt 4 cfg1.N)
abbrev E3 : (c : Dev nD) → (b : Ref sig .tc) → Buf (Elt F) ((c : Thread nD τ).loc b) := fun c b => M3 m ρ c b

theorem M2_v5 (c : Dev nD) : M2 m ρ c (Proc.devRef .tc main_v5) = (dat0 (E1 m ρ) c).arrAt 6 cfg0.N := by
  unfold M2; exact Function.update_self ..
theorem M2_of_ne (c : Dev nD) (b : Ref sig .tc) (h : b ≠ main_v5) : M2 m ρ c (Proc.devRef .tc b) = M1 m ρ c (Proc.devRef .tc b) := by
  unfold M2; exact Function.update_of_ne (StableHlo.devRef_ne_of_ne h) _ _
theorem M3_v6 (c : Dev nD) : M3 m ρ c (Proc.devRef .tc main_v6) = (dat1 (E2 m ρ) c).arrAt 4 cfg1.N := by
  unfold M3; exact Function.update_self ..
theorem M3_of_ne (c : Dev nD) (b : Ref sig .tc) (h : b ≠ main_v6) : M3 m ρ c (Proc.devRef .tc b) = M2 m ρ c (Proc.devRef .tc b) := by
  unfold M3; exact Function.update_of_ne (StableHlo.devRef_ne_of_ne h) _ _

/-- The second region's arrays at its exit, and the buffers it does not touch. -/
theorem hF1 (c : Dev nD) (w : Fin cfg1.W) : (dat1 (E2 m ρ) c).arrAt w cfg1.N = E3 m ρ c (Pipeline.arrRef spec1 w) := by
  match w with
  | ⟨0, _⟩ => exact ((dat1 (E2 m ρ) c).arrAt_in 0 rfl _).trans ((A_eq1 (E2 m ρ) c 0).trans (M3_of_ne m ρ c main_v5 (by decide)).symm)
  | ⟨1, _⟩ => exact ((dat1 (E2 m ρ) c).arrAt_in 1 rfl _).trans ((A_eq1 (E2 m ρ) c 1).trans (M3_of_ne m ρ c main_arg0 (by decide)).symm)
  | ⟨2, _⟩ => exact ((dat1 (E2 m ρ) c).arrAt_in 2 rfl _).trans ((A_eq1 (E2 m ρ) c 2).trans (M3_of_ne m ρ c main_arg5 (by decide)).symm)
  | ⟨3, _⟩ => exact ((dat1 (E2 m ρ) c).arrAt_in 3 rfl _).trans ((A_eq1 (E2 m ρ) c 3).trans (M3_of_ne m ρ c main_arg6 (by decide)).symm)
  | ⟨4, _⟩ => exact (M3_v6 m ρ c).symm
theorem hrest1 (c : Dev nD) : ∀ b, b ∉ Finset.univ.image (Pipeline.arrRef spec1) → E3 m ρ c b = E2 m ρ c b :=
  fun b hb => M3_of_ne m ρ c b fun e => hb (Finset.mem_image.mpr ⟨4, Finset.mem_univ _, e ▸ rfl⟩)

/-- No host line and no write-back touches an argument: the last valuation has it as launched. -/
theorem M3_arg (c : Dev nD) (b : Ref sig .tc) (h5 : b ≠ main_v5) (h6 : b ≠ main_v6) (hW : b ∉ hostOps0_W) :
    M3 m ρ c (Proc.devRef .tc b) = m ((c : Thread nD τ).loc b) :=
  (M3_of_ne m ρ c b h6).trans ((M2_of_ne m ρ c b h5).trans (StableHlo.after_of_writes_sub hostOps0 _ hostOps0_writes hW))

/-! ## The proof data family and the thread state -/

/-- No pallas_call has a prefetched table. -/
abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (E1 m ρ) c
  | ⟨1, _⟩ => fun c => dat1 (E2 m ρ) c
abbrev 𝒱₀ : Variants := Variants.none
/-- No core owes another anything: no level is assigned. -/
abbrev Lv : GSem nD τ sig → Finset Unit := fun _ => ∅
abbrev lvl : GSem nD τ sig → Unit → ℕ := fun _ _ => 0
/-- What rides beside the buffers through every item: the generator register at some state, nothing owed. -/
abbrev Rr (c : Dev nD) : sProp 𝕄 := iprop((∃ r, prngReg c r) ∗ ∃ W, owes (c : Thread nD τ) (0 : CellTallies nD τ sig Unit) W)
/-- The host lines as one item over every buffer that outlives a region. -/
abbrev hostItem : Pipeline.HostSeg (Name := ℕ) (U := UR sig nD τ) (pcfgs (F := F)) defs₀ 𝒱₀ Lv lvl :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (M0 m ρ) Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every such buffer at the last valuation, the generator register somewhere. -/
abbrev Tₙ (c : Dev nD) : sProp 𝕄 := iprop(StableHlo.held (c : Thread nD τ) (Pipeline.ucRefs τ sig) (M3 m ρ c) ∗ ∃ r, prngReg c r)

/-! ## The regions as items -/

set_option backward.isDefEq.respectTransparency.types false in
/-- The first region: entered with every buffer at `M1`, left at `M2`. -/
def regAdj : Pipeline.RegionSeg (pcfgs (F := F)) adm' (pdats m ρ) () defs₀ 𝒱₀ Lv lvl 0 where
  win := winFacts₀0
  block_pos := block_pos0
  stage_whole := stage_whole0
  K := PEmpty
  osem k := k.elim
  ho := Pipeline.OwnSemFacts.none _
  hbody c := (body_obligation0 (E1 m ρ) c).loose
  hwaits := Pipeline.hwaits_of_owed_zero _ _ _ _ Lv lvl 0 fun _ _ => rfl
  pre c := iprop(StableHlo.held (c : Thread nD τ) (Pipeline.ucRefs τ sig) (M1 m ρ c) ∗ Rr c)
  post c := iprop(StableHlo.held (c : Thread nD τ) (Pipeline.ucRefs τ sig) (M2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := entry0 (E1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (E1 m ρ) c (E2 m ρ c) (M2_v5 m ρ c) (fun b hb => M2_of_ne m ρ c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The second region: entered with every buffer at `M2`, left at `M3`. -/
def regGcn : Pipeline.RegionSeg (pcfgs (F := F)) adm' (pdats m ρ) () defs₀ 𝒱₀ Lv lvl 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ Lv lvl 1 fun _ _ => rfl
  pre c := iprop(StableHlo.held (c : Thread nD τ) (Pipeline.ucRefs τ sig) (M2 m ρ c) ∗ Rr c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun w => by match w with | ⟨0, _⟩ => rfl | ⟨1, _⟩ => rfl | ⟨2, _⟩ => rfl | ⟨3, _⟩ => rfl | ⟨4, _⟩ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun w => by match w with | ⟨0, _⟩ => rfl | ⟨1, _⟩ => rfl | ⟨2, _⟩ => rfl | ⟨3, _⟩ => rfl | ⟨4, _⟩ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

abbrev items : List (Pipeline.Seg (pcfgs (F := F)) adm' (pdats m ρ) () defs₀ 𝒱₀ Lv lvl) :=
  [ .host (hostItem m ρ), .region (regAdj m ρ), .region (regGcn m ρ) ]
theorem main_run (c : Dev nD) : main (F := F) c = Pipeline.Seg.run (items m ρ) := (main_chain c).trans (by chain_rfl)

set_option backward.isDefEq.respectTransparency.types false in
/-- THE RUN: from any memory with zero counters every weakly fair execution of @main terminates, nothing faulting, and
    every final memory holds each buffer that outlives a region at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = M3 m ρ c b) :=
  Pipeline.θ_run_regions_kit (pcfgs (F := F)) adm' (pdats m ρ) () cellOf_inj emb₁ defs₀ 𝒱₀ Lv lvl m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (M0 m ρ c) ∗ Rr c)) (Tₙ := Tₙ m ρ)
    (hch := ⟨fun _ => .rfl, fun _ => .rfl, fun _ => .rfl, fun _ => .rfl⟩)
    (hinit := by
      refine Pipeline.initEach Lv lvl fun c => ?_
      rw [show unscopedBufs c (fun b => m ((c : Thread nD τ).loc b)) = StableHlo.held (c : Thread nD τ) (Pipeline.ucRefs τ sig) (M0 m ρ c)
        from Pipeline.unscopedBufs_held c (M0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = M3 m ρ c b)
    (hfin := fun c s' => by
      iintro ⟨⟨Hh, -⟩, HSI⟩
      unfold StableHlo.held
      imodintro
      iapply (pointsTo_read_all (Pipeline.ucRefs τ sig) (fun b => (((c : Thread nD τ)).1, b)) (M3 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (M3_arg m ρ c main_arg0 (by decide) (by decide) (by decide)),
     (h c _ (mem_uc main_arg1 (by decide))).trans (M3_arg m ρ c main_arg1 (by decide) (by decide) (by decide)),
     (h c _ (mem_uc main_arg2 (by decide))).trans (M3_arg m ρ c main_arg2 (by decide) (by decide) (by decide)),
     (h c _ (mem_uc main_arg3 (by decide))).trans (M3_arg m ρ c main_arg3 (by decide) (by decide) (by decide)),
     (h c _ (mem_uc main_arg4 (by decide))).trans (M3_arg m ρ c main_arg4 (by decide) (by decide) (by decide)),
     (h c _ (mem_uc main_arg5 (by decide))).trans (M3_arg m ρ c main_arg5 (by decide) (by decide) (by decide)),
     (h c _ (mem_uc main_arg6 (by decide))).trans (M3_arg m ρ c main_arg6 (by decide) (by decide) (by decide))⟩)
    (run_main m ρ)

end Cert.Kernel.Fr

end
-- ==== Proof.RegionAdjI.lean ====
/-
  The first kernel region of `KernelIdeal` at one grid point, for any float instance: what the body is handed and what it
  leaves.

  The region tiles the [1024, 1024] matrix of edge weights into [64, 128] blocks over a 16 × 8 grid.  At point (a, b)
  the body reads rows 64a … 64a+63 of the node features through one window and rows 128b … 128b+127 of THE SAME
  array through a second window, the perceptron's parameters through four whole-array windows, and stores one
  [64, 128] block: the body's single payload of the six loads.  An input window's buffer holds its block of the
  array at every point, fetched there or kept from the point before (the block index did not move).  The body's
  triple is run symbolically over the body's skeleton of loads and one store.
-/
import proofs.«135860_j77386720739714_2_alg».proof.Proof.Gen.KernelIdeal.Launch
import proofs.«135860_j77386720739714_2_alg».proof.Proof.Gen.KernelIdeal.Skeleton
import proofs.«135860_j77386720739714_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with, per core: a parameter
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or kept from the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or kept from the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or kept from the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, fetched there or kept from the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every point, fetched there or kept from the point before. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current buffer holds its block at every point, fetched there or kept from the point before. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take a whole buffer -/
abbrev r64x128_0 : Rect S64x128 := Rect.unit (s := S64x128) ![0, 0] S64x128.size inb_S64x128_S64x128_0_0
abbrev r128x128_0 : Rect S128x128 := Rect.unit (s := S128x128) ![0, 0] S128x128.size inb_S128x128_S128x128_0_0
abbrev r128_0 : Rect S128 := Rect.unit (s := S128) ![0] S128.size inb_S128_S128_0
abbrev r1x1_0 : Rect S1x1 := Rect.unit (s := S1x1) ![0, 0] S1x1.size inb_S1x1_S1x1_0_0

/-! ## What the body leaves in the output window's buffer -/

/-- The output buffer after the body: its one store, of the payload of the loads. -/
def out0_6 (x0 : Vec F S64x128 .bf16) (x1 : Vec F S128x128 .bf16) (x2 : Vec F S128x128 .bf16) (x3 : Vec F S128 .f32) (x4 : Vec F S128 .bf16) (x5 : Vec F S1x1 .f32) : Vec F S64x128 .f32 :=
  View.canon [⟨r64x128_0, k0_pay1 (View.ld x0 r64x128_0) (View.ld x1 r128x128_0) (View.ld x2 r128x128_0) (View.ld x3 r128_0) (View.ld x4 r128_0) (View.ld x5 r1x1_0)⟩]

/-- The store covers the buffer. -/
theorem cover0_6 (p0 : Vec F S64x128 .f32) (y : S64x128.Idx) :
    ∃ pc ∈ ([⟨r64x128_0, p0⟩] : List (View.Piece (Elt F) S64x128 .f32)), y ∈ pc.1.set :=
  View.cover_of_tiled [⟨r64x128_0, p0⟩] S64x128.size (by rfl) y

/-! ## The body's triple -/

set_option maxHeartbeats 4000000 in
/-- The body on whole staging memrefs, the inputs' at contents `xW` and the output's at anything, runs to the
    continuation holding the inputs' as they were and the output's at the store's canon. -/
theorem sound_kernel0 (c : Dev nD) (E : Set ℕ) (i : grid0.Coords) (a0 : Memref sig .tc .vmem S64x128 .bf16) (ha0 : a0.IsWhole) (a1 : Memref sig .tc .vmem S128x128 .bf16) (ha1 : a1.IsWhole) (a2 : Memref sig .tc .vmem S128x128 .bf16) (ha2 : a2.IsWhole) (a3 : Memref sig .tc .vmem S128 .f32) (ha3 : a3.IsWhole) (a4 : Memref sig .tc .vmem S128 .bf16) (ha4 : a4.IsWhole) (a5 : Memref sig .tc .vmem S1x1 .f32) (ha5 : a5.IsWhole) (a6 : Memref sig .tc .vmem S64x128 .f32) (ha6 : a6.IsWhole)
    (x0 : Vec F S64x128 .bf16) (x1 : Vec F S128x128 .bf16) (x2 : Vec F S128x128 .bf16) (x3 : Vec F S128 .f32) (x4 : Vec F S128 .bf16) (x5 : Vec F S1x1 .f32) (Kc : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out0_6 x0 x1 x2 x3 x4 x5)) -∗ Kc ⟨⟩))
      ⊢ wp frame (wpE (defs₀ (F := F)) Variants.none c none) E (cc0__adj_kernel i a0 ha0 a1 ha1 a2 ha2 a3 ha3 a4 ha4 a5 ha5 a6 ha6) Kc := by
  simp only [cc0__adj_kernel_eq_skeleton]; unfold cc0__adj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data on core `c`: the arrays as the region finds them; after the body at point `t` each input's buffer at
    its block and the output's at the store's canon of the input blocks; the invariant the scoped rest and the
    generator register, untouched; nothing owed; the two windows on the one feature array hold it by halves. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation at a generic point -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.RegionGcnI.lean ====
/-
  The second kernel region of `KernelIdeal`, for any float instance: what the body is handed and what it leaves.

  The region has one grid point and whole-array windows: the [1024, 1024] matrix of edge weights the first region
  wrote, the node features, the layer's weight and bias.  The body loads the four, computes, and stores the whole
  [1024, 128] output: the body's single payload of the four loads.  The body's triple is run symbolically over the
  body's skeleton of loads and one store.
-/
import proofs.«135860_j77386720739714_2_alg».proof.Proof.Gen.KernelIdeal.Launch
import proofs.«135860_j77386720739714_2_alg».proof.Proof.Gen.KernelIdeal.Skeleton
import proofs.«135860_j77386720739714_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with, per core: a parameter
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or kept from the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or kept from the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or kept from the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or kept from the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take a whole buffer -/
abbrev r1024x1024_1 : Rect S1024x1024 := Rect.unit (s := S1024x1024) ![0, 0] S1024x1024.size inb_S1024x1024_S1024x1024_0_0
abbrev r1024x128_1 : Rect S1024x128 := Rect.unit (s := S1024x128) ![0, 0] S1024x128.size inb_S1024x128_S1024x128_0_0
abbrev r128x128_1 : Rect S128x128 := Rect.unit (s := S128x128) ![0, 0] S128x128.size inb_S128x128_S128x128_0_0
abbrev r128_1 : Rect S128 := Rect.unit (s := S128) ![0] S128.size inb_S128_S128_0

/-! ## What the body leaves in the output window's buffer -/

/-- The output buffer after the body: its one store, of the payload of the loads. -/
def out1_4 (x0 : Vec F S1024x1024 .f32) (x1 : Vec F S1024x128 .f32) (x2 : Vec F S128x128 .f32) (x3 : Vec F S128 .f32) : Vec F S1024x128 .f32 :=
  View.canon [⟨r1024x128_1, k1_pay1 (View.ld x0 r1024x1024_1) (View.ld x1 r1024x128_1) (View.ld x2 r128x128_1) (View.ld x3 r128_1)⟩]

/-- The store covers the buffer. -/
theorem cover1_4 (p0 : Vec F S1024x128 .f32) (y : S1024x128.Idx) :
    ∃ pc ∈ ([⟨r1024x128_1, p0⟩] : List (View.Piece (Elt F) S1024x128 .f32)), y ∈ pc.1.set :=
  View.cover_of_tiled [⟨r1024x128_1, p0⟩] S1024x128.size (by rfl) y

/-! ## The body's triple -/

set_option maxHeartbeats 4000000 in
/-- The body on whole staging memrefs, the inputs' at contents `xW` and the output's at anything, runs to the
    continuation holding the inputs' as they were and the output's at the store's canon. -/
theorem sound_kernel1 (c : Dev nD) (E : Set ℕ) (i : grid1.Coords) (a0 : Memref sig .tc .vmem S1024x1024 .f32) (ha0 : a0.IsWhole) (a1 : Memref sig .tc .vmem S1024x128 .f32) (ha1 : a1.IsWhole) (a2 : Memref sig .tc .vmem S128x128 .f32) (ha2 : a2.IsWhole) (a3 : Memref sig .tc .vmem S128 .f32) (ha3 : a3.IsWhole) (a4 : Memref sig .tc .vmem S1024x128 .f32) (ha4 : a4.IsWhole)
    (x0 : Vec F S1024x1024 .f32) (x1 : Vec F S1024x128 .f32) (x2 : Vec F S128x128 .f32) (x3 : Vec F S128 .f32) (Kc : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ (∃ d, owns (c : Thread nD τ) a4 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare (out1_4 x0 x1 x2 x3)) -∗ Kc ⟨⟩))
      ⊢ wp frame (wpE (defs₀ (F := F)) Variants.none c none) E (cc1__gcn_kernel i a0 ha0 a1 ha1 a2 ha2 a3 ha3 a4 ha4) Kc := by
  simp only [cc1__gcn_kernel_eq_skeleton]; unfold cc1__gcn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data on core `c`: the arrays as the region finds them; after the body at point `t` each input's buffer at
    its block and the output's at the store's canon of the input blocks; the invariant the scoped rest and the
    generator register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨0, _⟩ => fullShare
    | ⟨1, _⟩ => fullShare
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation at a generic point -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 1000000 in
/-- The body at any point: the inputs' memrefs hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.RunI.lean ====
/-
  The run of `KernelIdeal`'s @main from the launch to the return, for any float instance: five host lines (two reshapes,
  three changes of float format), the first kernel region, the second kernel region.

  Between two items a core holds every buffer that outlives a region at a named valuation: the launch memory, then the
  host lines' results folded over it, then the matrix of edge weights at what the first region's write-backs leave,
  then the layer's output at what the second region's write-back leaves.  A region takes its windows' arrays out of
  that state at entry and puts them back at exit.  In the first region two windows read ONE array (the node features in
  the narrow format): the array's full share is cut into its two halves at entry, one per window, and the halves are
  joined again at exit; no other window there shares an array.  Every weakly fair execution then terminates, and the
  final memory holds every such buffer at the last valuation; the argument arrays come out as launched because no host
  line and no write-back touches them.
-/
import proofs.«135860_j77386720739714_2_alg».proof.Proof.RegionAdjI
import proofs.«135860_j77386720739714_2_alg».proof.Proof.RegionGcnI
import proofs.«135860_j77386720739714_2_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first region's arrays among a core's buffers -/

section Arrays0

variable (V : (c : Dev nD) → (b : Ref sig .tc) → Buf (Elt F) ((c : Thread nD τ).loc b))

/-- The six distinct buffers behind the first region's seven windows, one by one. -/
theorem arrBufs0_eq (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_v2) ↦{fullShare} Vc main_v2) ∗ (((c : Thread nD τ).loc main_v3) ↦{fullShare} Vc main_v3)
          ∗ (((c : Thread nD τ).loc main_arg2) ↦{fullShare} Vc main_arg2) ∗ (((c : Thread nD τ).loc main_v4) ↦{fullShare} Vc main_v4)
          ∗ (((c : Thread nD τ).loc main_v1) ↦{fullShare} Vc main_v1) ∗ (((c : Thread nD τ).loc main_v5) ↦{fullShare} Vc main_v5)) := by
  unfold Pipeline.arrBufs
  exact bigSep_eq_bigSepL_of_eq [main_v2, main_v3, main_arg2, main_v4, main_v1, main_v5] (by decide) (by decide) _

/-- The proof data's arrays, window by window: the two windows on the feature array hold its two halves. -/
theorem arrays0_eq (c : Dev nD) (Fw : (w : Fin cfg0.W) → Buf (Elt F) ((cfg0.win w).arr.view.loc (c.tc : Thread nD τ))) :
    ((dat0 V c).arrays Fw : sProp 𝕄)
      = iprop((((c : Thread nD τ).loc main_v2) ↦{fullShare.left} Fw 0) ∗ (((c : Thread nD τ).loc main_v2) ↦{fullShare.right} Fw 1)
          ∗ (((c : Thread nD τ).loc main_v3) ↦{fullShare} Fw 2) ∗ (((c : Thread nD τ).loc main_arg2) ↦{fullShare} Fw 3)
          ∗ (((c : Thread nD τ).loc main_v4) ↦{fullShare} Fw 4) ∗ (((c : Thread nD τ).loc main_v1) ↦{fullShare} Fw 5)
          ∗ (((c : Thread nD τ).loc main_v5) ↦{fullShare} Fw 6)) := by
  unfold Dat.arrays
  rw [bigSep_W0, (arr_whole0 0).set_eq_univ, (arr_whole0 2).set_eq_univ, (arr_whole0 3).set_eq_univ,
    (arr_whole0 4).set_eq_univ, (arr_whole0 5).set_eq_univ, (arr_whole0 6).set_eq_univ]
  rfl

/-- ENTRY: a core's buffers at the entry contents are the first region's arrays at them — the feature array cut into
    its two halves, one per window — and the buffers no window touches. -/
theorem entry0 (c : Dev nD) :
    (unscopedBufs (Ix := Unit) (Name := ℕ) (U := UR sig nD τ) (Lvl := ℕ) c (V c) : sProp 𝕄)
      ⊢ iprop((dat0 V c).arrays ((dat0 V c).arrAt · 0)
          ∗ Pipeline.unscopedRest (Ix := Unit) (Name := ℕ) (U := UR sig nD τ) (Lvl := ℕ) spec0 c (V c)) := by
  rw [Pipeline.unscopedBufs_split₀ cfgs 0 winFacts₀0.arr_unscoped c (V c)]
  refine sep_mono ?_ .rfl
  show (Pipeline.arrBufs (Ix := Unit) (Name := ℕ) (U := UR sig nD τ) (Lvl := ℕ) spec0 c (V c) : sProp 𝕄) ⊢ _
  rw [arrBufs0_eq, arrays0_eq]
  iintro ⟨H2, H3, Ha, H4, H1, H5⟩
  ihave H2' := (pointsTo_share (PosShare.mem_left_op_right fullShare)).1 $$ H2
  icases H2' with ⟨H2l, H2r⟩
  isplitl [H2l]; · iexact H2l
  isplitl [H2r]; · iexact H2r
  isplitl [H3]; · iexact H3
  isplitl [Ha]; · iexact Ha
  isplitl [H4]; · iexact H4
  isplitl [H1]; · iexact H1
  iexact H5

/-- EXIT: the arrays as the region leaves them — the inputs as entered, the halves of the feature array joined, the
    edge-weight matrix at its written-back contents — and the untouched buffers are a core's buffers at any valuation
    that has the matrix there and agrees with the entry contents elsewhere. -/
theorem exit0 (c : Dev nD) (V' : (b : Ref sig .tc) → Buf (Elt F) ((c : Thread nD τ).loc b))
    (h5 : V' main_v5 = (dat0 V c).arrAt 6 cfg0.N) (hrest : ∀ b : Ref sig .tc, b ≠ main_v5 → V' b = V c b) :
    iprop((dat0 V c).arrays ((dat0 V c).arrAt · cfg0.N)
        ∗ Pipeline.unscopedRest (Ix := Unit) (Name := ℕ) (U := UR sig nD τ) (Lvl := ℕ) spec0 c (V c))
      ⊢ (unscopedBufs (Ix := Unit) (Name := ℕ) (U := UR sig nD τ) (Lvl := ℕ) c V' : sProp 𝕄) := by
  rw [Pipeline.unscopedBufs_split₀ cfgs 0 winFacts₀0.arr_unscoped c V']
  refine sep_mono ?_ (Entails.of_eq ?_)
  · show _ ⊢ (Pipeline.arrBufs (Ix := Unit) (Name := ℕ) (U := UR sig nD τ) (Lvl := ℕ) spec0 c V' : sProp 𝕄)
    rw [arrBufs0_eq, arrays0_eq, h5, hrest main_v2 (by decide), hrest main_v3 (by decide), hrest main_arg2 (by decide),
      hrest main_v4 (by decide), hrest main_v1 (by decide),
      (dat0 V c).arrAt_in 0 rfl, (dat0 V c).arrAt_in 1 rfl, (dat0 V c).arrAt_in 2 rfl, (dat0 V c).arrAt_in 3 rfl,
      (dat0 V c).arrAt_in 4 rfl, (dat0 V c).arrAt_in 5 rfl]
    iintro ⟨H2l, H2r, H3, Ha, H4, H1, H5⟩
    isplitl [H2l H2r]
    · iapply (pointsTo_share (PosShare.mem_left_op_right fullShare)).2
      isplitl [H2l]; · iexact H2l
      iexact H2r
    isplitl [H3]; · iexact H3
    isplitl [Ha]; · iexact Ha
    isplitl [H4]; · iexact H4
    isplitl [H1]; · iexact H1
    iexact H5
  · unfold Pipeline.unscopedRest
    exact bigSep_congr fun b hb => by
      rw [hrest b (fun e => (Finset.mem_sdiff.mp hb).2 (Finset.mem_image.mpr ⟨6, Finset.mem_univ _, e ▸ rfl⟩))]

end Arrays0

/-! ## The buffer contents at each boundary: a fold through @main -/

variable (m : (ℓ : Loc nD τ sig) → Buf (Elt F) ℓ) (ρ : Dev nD → PrngReg)

/-- Core `c`'s buffers at launch. -/
abbrev M0 : Dev nD → Valuation τ sig (Elt F) := fun c b => (s₀ m ρ).mem ((c : Dev nD), b)
/-- After the five host lines: the first region's entry. -/
abbrev M1 : Dev nD → Valuation τ sig (Elt F) := fun c => StableHlo.after hostOps0 (M0 m ρ c)
/-- The same read at the TensorCore's references. -/
abbrev E1 : (c : Dev nD) → (b : Ref sig .tc) → Buf (Elt F) ((c : Thread nD τ).loc b) := fun c b => M1 m ρ c b
/-- At the first region's exit: the matrix of edge weights at what the write-backs leave, every other buffer as entered. -/
def M2 (c : Dev nD) : Valuation τ sig (Elt F) :=
  Function.update (M1 m ρ c) (Proc.devRef .tc main_v5) ((dat0 (E1 m ρ) c).arrAt 6 cfg0.N)
abbrev E2 : (c : Dev nD) → (b : Ref sig .tc) → Buf (Elt F) ((c : Thread nD τ).loc b) := fun c b => M2 m ρ c b
/-- At the second region's exit: the layer's output at what the write-back leaves, every other buffer as entered. -/
def M3 (c : Dev nD) : Valuation τ sig (Elt F) :=
  Function.update (M2 m ρ c) (Proc.devRef .tc main_v6) ((dat1 (E2 m ρ) c).arrAt 4 cfg1.N)
abbrev E3 : (c : Dev nD) → (b : Ref sig .tc) → Buf (Elt F) ((c : Thread nD τ).loc b) := fun c b => M3 m ρ c b

theorem M2_v5 (c : Dev nD) : M2 m ρ c (Proc.devRef .tc main_v5) = (dat0 (E1 m ρ) c).arrAt 6 cfg0.N := by
  unfold M2; exact Function.update_self ..
theorem M2_of_ne (c : Dev nD) (b : Ref sig .tc) (h : b ≠ main_v5) : M2 m ρ c (Proc.devRef .tc b) = M1 m ρ c (Proc.devRef .tc b) := by
  unfold M2; exact Function.update_of_ne (StableHlo.devRef_ne_of_ne h) _ _
theorem M3_v6 (c : Dev nD) : M3 m ρ c (Proc.devRef .tc main_v6) = (dat1 (E2 m ρ) c).arrAt 4 cfg1.N := by
  unfold M3; exact Function.update_self ..
theorem M3_of_ne (c : Dev nD) (b : Ref sig .tc) (h : b ≠ main_v6) : M3 m ρ c (Proc.devRef .tc b) = M2 m ρ c (Proc.devRef .tc b) := by
  unfold M3; exact Function.update_of_ne (StableHlo.devRef_ne_of_ne h) _ _

/-- The second region's arrays at its exit, and the buffers it does not touch. -/
theorem hF1 (c : Dev nD) (w : Fin cfg1.W) : (dat1 (E2 m ρ) c).arrAt w cfg1.N = E3 m ρ c (Pipeline.arrRef spec1 w) := by
  match w with
  | ⟨0, _⟩ => exact ((dat1 (E2 m ρ) c).arrAt_in 0 rfl _).trans ((A_eq1 (E2 m ρ) c 0).trans (M3_of_ne m ρ c main_v5 (by decide)).symm)
  | ⟨1, _⟩ => exact ((dat1 (E2 m ρ) c).arrAt_in 1 rfl _).trans ((A_eq1 (E2 m ρ) c 1).trans (M3_of_ne m ρ c main_arg0 (by decide)).symm)
  | ⟨2, _⟩ => exact ((dat1 (E2 m ρ) c).arrAt_in 2 rfl _).trans ((A_eq1 (E2 m ρ) c 2).trans (M3_of_ne m ρ c main_arg5 (by decide)).symm)
  | ⟨3, _⟩ => exact ((dat1 (E2 m ρ) c).arrAt_in 3 rfl _).trans ((A_eq1 (E2 m ρ) c 3).trans (M3_of_ne m ρ c main_arg6 (by decide)).symm)
  | ⟨4, _⟩ => exact (M3_v6 m ρ c).symm
theorem hrest1 (c : Dev nD) : ∀ b, b ∉ Finset.univ.image (Pipeline.arrRef spec1) → E3 m ρ c b = E2 m ρ c b :=
  fun b hb => M3_of_ne m ρ c b fun e => hb (Finset.mem_image.mpr ⟨4, Finset.mem_univ _, e ▸ rfl⟩)

/-- No host line and no write-back touches an argument: the last valuation has it as launched. -/
theorem M3_arg (c : Dev nD) (b : Ref sig .tc) (h5 : b ≠ main_v5) (h6 : b ≠ main_v6) (hW : b ∉ hostOps0_W) :
    M3 m ρ c (Proc.devRef .tc b) = m ((c : Thread nD τ).loc b) :=
  (M3_of_ne m ρ c b h6).trans ((M2_of_ne m ρ c b h5).trans (StableHlo.after_of_writes_sub hostOps0 _ hostOps0_writes hW))

/-! ## The proof data family and the thread state -/

/-- No pallas_call has a prefetched table. -/
abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (E1 m ρ) c
  | ⟨1, _⟩ => fun c => dat1 (E2 m ρ) c
abbrev 𝒱₀ : Variants := Variants.none
/-- No core owes another anything: no level is assigned. -/
abbrev Lv : GSem nD τ sig → Finset Unit := fun _ => ∅
abbrev lvl : GSem nD τ sig → Unit → ℕ := fun _ _ => 0
/-- What rides beside the buffers through every item: the generator register at some state, nothing owed. -/
abbrev Rr (c : Dev nD) : sProp 𝕄 := iprop((∃ r, prngReg c r) ∗ ∃ W, owes (c : Thread nD τ) (0 : CellTallies nD τ sig Unit) W)
/-- The host lines as one item over every buffer that outlives a region. -/
abbrev hostItem : Pipeline.HostSeg (Name := ℕ) (U := UR sig nD τ) (pcfgs (F := F)) defs₀ 𝒱₀ Lv lvl :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (M0 m ρ) Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every such buffer at the last valuation, the generator register somewhere. -/
abbrev Tₙ (c : Dev nD) : sProp 𝕄 := iprop(StableHlo.held (c : Thread nD τ) (Pipeline.ucRefs τ sig) (M3 m ρ c) ∗ ∃ r, prngReg c r)

/-! ## The regions as items -/

set_option backward.isDefEq.respectTransparency.types false in
/-- The first region: entered with every buffer at `M1`, left at `M2`. -/
def regAdj : Pipeline.RegionSeg (pcfgs (F := F)) adm' (pdats m ρ) () defs₀ 𝒱₀ Lv lvl 0 where
  win := winFacts₀0
  block_pos := block_pos0
  stage_whole := stage_whole0
  K := PEmpty
  osem k := k.elim
  ho := Pipeline.OwnSemFacts.none _
  hbody c := (body_obligation0 (E1 m ρ) c).loose
  hwaits := Pipeline.hwaits_of_owed_zero _ _ _ _ Lv lvl 0 fun _ _ => rfl
  pre c := iprop(StableHlo.held (c : Thread nD τ) (Pipeline.ucRefs τ sig) (M1 m ρ c) ∗ Rr c)
  post c := iprop(StableHlo.held (c : Thread nD τ) (Pipeline.ucRefs τ sig) (M2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := entry0 (E1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (E1 m ρ) c (E2 m ρ c) (M2_v5 m ρ c) (fun b hb => M2_of_ne m ρ c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The second region: entered with every buffer at `M2`, left at `M3`. -/
def regGcn : Pipeline.RegionSeg (pcfgs (F := F)) adm' (pdats m ρ) () defs₀ 𝒱₀ Lv lvl 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ Lv lvl 1 fun _ _ => rfl
  pre c := iprop(StableHlo.held (c : Thread nD τ) (Pipeline.ucRefs τ sig) (M2 m ρ c) ∗ Rr c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun w => by match w with | ⟨0, _⟩ => rfl | ⟨1, _⟩ => rfl | ⟨2, _⟩ => rfl | ⟨3, _⟩ => rfl | ⟨4, _⟩ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun w => by match w with | ⟨0, _⟩ => rfl | ⟨1, _⟩ => rfl | ⟨2, _⟩ => rfl | ⟨3, _⟩ => rfl | ⟨4, _⟩ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

abbrev items : List (Pipeline.Seg (pcfgs (F := F)) adm' (pdats m ρ) () defs₀ 𝒱₀ Lv lvl) :=
  [ .host (hostItem m ρ), .region (regAdj m ρ), .region (regGcn m ρ) ]
theorem main_run (c : Dev nD) : main (F := F) c = Pipeline.Seg.run (items m ρ) := (main_chain c).trans (by chain_rfl)

set_option backward.isDefEq.respectTransparency.types false in
/-- THE RUN: from any memory with zero counters every weakly fair execution of @main terminates, nothing faulting, and
    every final memory holds each buffer that outlives a region at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = M3 m ρ c b) :=
  Pipeline.θ_run_regions_kit (pcfgs (F := F)) adm' (pdats m ρ) () cellOf_inj emb₁ defs₀ 𝒱₀ Lv lvl m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (M0 m ρ c) ∗ Rr c)) (Tₙ := Tₙ m ρ)
    (hch := ⟨fun _ => .rfl, fun _ => .rfl, fun _ => .rfl, fun _ => .rfl⟩)
    (hinit := by
      refine Pipeline.initEach Lv lvl fun c => ?_
      rw [show unscopedBufs c (fun b => m ((c : Thread nD τ).loc b)) = StableHlo.held (c : Thread nD τ) (Pipeline.ucRefs τ sig) (M0 m ρ c)
        from Pipeline.unscopedBufs_held c (M0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = M3 m ρ c b)
    (hfin := fun c s' => by
      iintro ⟨⟨Hh, -⟩, HSI⟩
      unfold StableHlo.held
      imodintro
      iapply (pointsTo_read_all (Pipeline.ucRefs τ sig) (fun b => (((c : Thread nD τ)).1, b)) (M3 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (M3_arg m ρ c main_arg0 (by decide) (by decide) (by decide)),
     (h c _ (mem_uc main_arg1 (by decide))).trans (M3_arg m ρ c main_arg1 (by decide) (by decide) (by decide)),
     (h c _ (mem_uc main_arg2 (by decide))).trans (M3_arg m ρ c main_arg2 (by decide) (by decide) (by decide)),
     (h c _ (mem_uc main_arg3 (by decide))).trans (M3_arg m ρ c main_arg3 (by decide) (by decide) (by decide)),
     (h c _ (mem_uc main_arg4 (by decide))).trans (M3_arg m ρ c main_arg4 (by decide) (by decide) (by decide)),
     (h c _ (mem_uc main_arg5 (by decide))).trans (M3_arg m ρ c main_arg5 (by decide) (by decide) (by decide)),
     (h c _ (mem_uc main_arg6 (by decide))).trans (M3_arg m ρ c main_arg6 (by decide) (by decide) (by decide))⟩)
    (run_main m ρ)

end Cert.KernelIdeal.Fr

end
-- ==== Proof.Spec.lean ====
/-
  The mathematics both programs compute, on the extended reals, entry by entry.

  An edge weight: for two rows xi, xj of the node features, the absolute difference |xi − xj| goes through a
  two-layer perceptron — hidden unit h is max(Σ_d |xi d − xj d| · W1 d h + b1 h, 0), the logit is
  Σ_h hidden h · w2 h + b2 — and the weight is the logistic function of the logit.

  The layer's output: with A the matrix of edge weights, deg r = Σ_j A r j, dinv r = deg r ^ (-1/2), the
  normalised weight (dinv i · A i j) · dinv j, the entry is the leaky rectifier (slope 0.2 below zero) of
  Σ_j normalised i j · (Σ_d x j d · Wg d o) + bg o.

  The two float literals (0 and 0.2) are kept as their words: both programs carry the same words.
-/
import Idealize.ShloMosaic.PureOps.Ideal
import Idealize.ShloMosaic.Lib.ValueIdx

noncomputable section

open scoped BigOperators

namespace Cert.Gcn

open Idealize.ShloMosaic

/-- The word of the float literal 0. -/
abbrev z0 : EReal := Ideal.ofBits .f32 0x00000000#32
/-- The word of the float literal 0.2 (the rectifier's slope below zero). -/
abbrev slope : EReal := Ideal.ofBits .f32 0x3E4CCCCD#32

/-- Hidden unit `h` of the edge perceptron on the rows `xi`, `xj`. -/
def hidden (xi xj : Fin 128 → EReal) (W1 : Fin 128 → Fin 128 → EReal) (b1 : Fin 128 → EReal) (h : Fin 128) : EReal :=
  max ((∑ d : Fin 128, max (xi d - xj d) (-(xi d - xj d)) * W1 d h) + b1 h) z0

/-- The edge weight of the rows `xi`, `xj`: the logistic function of the perceptron's logit. -/
def adjEntry (xi xj : Fin 128 → EReal) (W1 : Fin 128 → Fin 128 → EReal) (b1 w2 : Fin 128 → EReal) (b2 : EReal) : EReal :=
  Ideal.logistic ((∑ h : Fin 128, hidden xi xj W1 b1 h * w2 h) + b2)

/-- The inverse square root of row `r`'s degree. -/
def dinv (A : Fin 1024 → Fin 1024 → EReal) (r : Fin 1024) : EReal := Ideal.rsqrt (∑ j : Fin 1024, A r j)

/-- The entry before the rectifier: the normalised weights times the projected features, plus the bias. -/
def pre (A : Fin 1024 → Fin 1024 → EReal) (x : Fin 1024 → Fin 128 → EReal) (Wg : Fin 128 → Fin 128 → EReal)
    (bg : Fin 128 → EReal) (i : Fin 1024) (o : Fin 128) : EReal :=
  (∑ j : Fin 1024, (dinv A i * A i j * dinv A j) * (∑ d : Fin 128, x j d * Wg d o)) + bg o

/-- The leaky rectifier: `v` above zero, `0.2 · v` otherwise. -/
def leaky (v : EReal) : EReal := Scalar.select (Ideal.cmp .ogt v z0) v (slope * v)

/-- The layer's output entry `(i, o)`. -/
def gcnEntry (A : Fin 1024 → Fin 1024 → EReal) (x : Fin 1024 → Fin 128 → EReal) (Wg : Fin 128 → Fin 128 → EReal)
    (bg : Fin 128 → EReal) (i : Fin 1024) (o : Fin 128) : EReal :=
  leaky (pre A x Wg bg i o)

end Cert.Gcn

end
-- ==== Proof.AdjArray.lean ====
/-
  The first region's output: the [1024, 1024] matrix of edge weights, assembled from its [64, 128] blocks.

  At the grid point with coordinates (a, b) the body stores the block whose entry (p, q) is the edge weight of rows
  64a + p and 128b + q of the node features: the first window holds rows 64a … of the features, the second rows
  128b … of the same array, the other four the perceptron's parameters whole. The 16 × 8 blocks tile the matrix,
  so after the run its entry (r, s) is the edge weight of rows r and s.
-/
import proofs.«135860_j77386720739714_2_alg».proof.Proof.RegionAdjI
import proofs.«135860_j77386720739714_2_alg».proof.Proof.Spec
import Idealize.ShloMosaic.Lib.Pipeline.Value
import Idealize.ShloMosaic.Lib.ValueIdx

noncomputable section

namespace Cert.KernelIdeal.AdjArray

open Cert.KernelIdeal Cert.KernelIdeal.Gen Cert.KernelIdeal.Fr Idealize.ShloMosaic Idealize.ShloMosaic.ValueIdx
open Idealize.ShloMosaic.TcCoe Idealize.SL.Sem
open Idealize.ShloMosaic.Pipeline (Dat)

/-! ## The matrix of edge weights as one function of the arrays -/

/-- The edge weight of rows r and s of the features X under the perceptron's parameters. -/
def edge (X : S1024x128.Idx → EReal) (W1 : S128x128.Idx → EReal) (b1 : S128.Idx → EReal) (w2 : S128.Idx → EReal)
    (b2 : S1x1.Idx → EReal) (r s : Fin 1024) : EReal :=
  Cert.Gcn.adjEntry (fun d => X (ix2 r d)) (fun d => X (ix2 s d)) (fun d h => W1 (ix2 d h)) (fun h => b1 (ix1 h))
    (fun h => w2 (ix1 h)) (b2 (ix2 (0 : Fin 1) (0 : Fin 1)))

/-- The whole matrix: entry i is the edge weight of rows i 0 and i 1. -/
def edgeArray (X : S1024x128.Idx → EReal) (W1 : S128x128.Idx → EReal) (b1 : S128.Idx → EReal) (w2 : S128.Idx → EReal)
    (b2 : S1x1.Idx → EReal) : S1024x1024.Idx → EReal :=
  fun i => edge X W1 b1 w2 b2 (i 0) (i 1)

theorem hz2 : (![0, 0] : Fin 2 → Nat) = fun _ => 0 := funext fun a => by fin_cases a <;> rfl
theorem hz1 : (![0] : Fin 1 → Nat) = fun _ => 0 := funext fun a => by fin_cases a <;> rfl

/-! ## The block indices over the grid -/

/-- The printed index maps, decided over the grid: the first window's row block is the output's row block, the
    second window's row block is the output's column block, every other block index is zero, and the output's block
    indices stay in their ranges. -/
theorem idx_facts : ∀ t : Fin cfg0.N,
    win0_0.index t (0 : Fin 2) = win0_6.index t (0 : Fin 2) ∧ win0_0.index t (1 : Fin 2) = 0
    ∧ win0_1.index t (0 : Fin 2) = win0_6.index t (1 : Fin 2) ∧ win0_1.index t (1 : Fin 2) = 0
    ∧ win0_2.index t (0 : Fin 2) = 0 ∧ win0_2.index t (1 : Fin 2) = 0
    ∧ win0_3.index t (0 : Fin 1) = 0 ∧ win0_4.index t (0 : Fin 1) = 0
    ∧ win0_5.index t (0 : Fin 2) = 0 ∧ win0_5.index t (1 : Fin 2) = 0
    ∧ win0_6.index t (0 : Fin 2) ≤ 15 ∧ win0_6.index t (1 : Fin 2) ≤ 7 :=
  (by decide +kernel : ∀ t : Fin grid0.N, _)

/-- Every block of the matrix is some point's. -/
theorem idx_onto : ∀ (a : Fin 16) (b : Fin 8), ∃ t : Fin cfg0.N, win0_6.index t = ![a.val, b.val] :=
  (by decide +kernel : ∀ (a : Fin 16) (b : Fin 8), ∃ t : Fin grid0.N, win0_6.index t = ![a.val, b.val])

/-! ## The blocks of the arrays the body reads -/

/-- The first window's block at point t holds rows (its block index) · 64 … of the features. -/
theorem rows64_at (X : S1024x128.Idx → EReal) (t : Fin cfg0.N) (p : Fin 64) (d : Fin 128) (r : Fin 1024)
    (hr : r.val = win0_0.index t (0 : Fin 2) * 64 + p.val) (h1 : win0_0.index t (1 : Fin 2) = 0) :
    ((cfg0.win 0).blk t).view.read (Elt Ideal) X (ix2 p d) = X (ix2 r d) := by
  rw [View.read_apply]
  show X _ = X _
  congr 1
  funext a; apply Fin.ext
  match a with
  | ⟨0, _⟩ => show win0_0.index t (0 : Fin 2) * 64 + 1 * p.val = r.val; omega
  | ⟨1, _⟩ => show win0_0.index t (1 : Fin 2) * 128 + 1 * d.val = d.val; omega

/-- The second window's block at point t holds rows (its block index) · 128 … of the same features. -/
theorem rows128_at (X : S1024x128.Idx → EReal) (t : Fin cfg0.N) (q : Fin 128) (d : Fin 128) (s : Fin 1024)
    (hs : s.val = win0_1.index t (0 : Fin 2) * 128 + q.val) (h1 : win0_1.index t (1 : Fin 2) = 0) :
    ((cfg0.win 1).blk t).view.read (Elt Ideal) X (ix2 q d) = X (ix2 s d) := by
  rw [View.read_apply]
  show X _ = X _
  congr 1
  funext a; apply Fin.ext
  match a with
  | ⟨0, _⟩ => show win0_1.index t (0 : Fin 2) * 128 + 1 * q.val = s.val; omega
  | ⟨1, _⟩ => show win0_1.index t (1 : Fin 2) * 128 + 1 * d.val = d.val; omega

/-- The third window's block is the first layer's weights, whole. -/
theorem w1_at (W1 : S128x128.Idx → EReal) (t : Fin cfg0.N) (d h : Fin 128)
    (h0 : win0_2.index t (0 : Fin 2) = 0) (h1 : win0_2.index t (1 : Fin 2) = 0) :
    ((cfg0.win 2).blk t).view.read (Elt Ideal) W1 (ix2 d h) = W1 (ix2 d h) := by
  rw [View.read_apply]
  show W1 _ = W1 _
  congr 1
  funext a; apply Fin.ext
  match a with
  | ⟨0, _⟩ => show win0_2.index t (0 : Fin 2) * 128 + 1 * d.val = d.val; omega
  | ⟨1, _⟩ => show win0_2.index t (1 : Fin 2) * 128 + 1 * h.val = h.val; omega

/-- The fourth window's block is the first layer's bias, whole. -/
theorem b1_at (b1 : S128.Idx → EReal) (t : Fin cfg0.N) (h : Fin 128) (h0 : win0_3.index t (0 : Fin 1) = 0) :
    ((cfg0.win 3).blk t).view.read (Elt Ideal) b1 (ix1 h) = b1 (ix1 h) := by
  rw [View.read_apply]
  show b1 _ = b1 _
  congr 1
  funext a; apply Fin.ext
  match a with
  | ⟨0, _⟩ => show win0_3.index t (0 : Fin 1) * 128 + 1 * h.val = h.val; omega

/-- The fifth window's block is the second layer's weights, whole. -/
theorem w2_at (w2 : S128.Idx → EReal) (t : Fin cfg0.N) (h : Fin 128) (h0 : win0_4.index t (0 : Fin 1) = 0) :
    ((cfg0.win 4).blk t).view.read (Elt Ideal) w2 (ix1 h) = w2 (ix1 h) := by
  rw [View.read_apply]
  show w2 _ = w2 _
  congr 1
  funext a; apply Fin.ext
  match a with
  | ⟨0, _⟩ => show win0_4.index t (0 : Fin 1) * 128 + 1 * h.val = h.val; omega

/-- The sixth window's block is the second layer's bias, whole. -/
theorem b2_at (b2 : S1x1.Idx → EReal) (t : Fin cfg0.N)
    (h0 : win0_5.index t (0 : Fin 2) = 0) (h1 : win0_5.index t (1 : Fin 2) = 0) :
    ((cfg0.win 5).blk t).view.read (Elt Ideal) b2 (ix2 (0 : Fin 1) (0 : Fin 1)) = b2 (ix2 (0 : Fin 1) (0 : Fin 1)) := by
  rw [View.read_apply]
  show b2 _ = b2 _
  congr 1
  funext a; apply Fin.ext
  match a with
  | ⟨0, _⟩ => show win0_5.index t (0 : Fin 2) * 1 + 1 * 0 = 0; omega
  | ⟨1, _⟩ => show win0_5.index t (1 : Fin 2) * 1 + 1 * 0 = 0; omega

/-- The output window's block at point t of the matrix of edge weights: entry (p, q) is the edge weight of rows
    (row block) · 64 + p and (column block) · 128 + q. -/
theorem edge_blk_at (X : S1024x128.Idx → EReal) (W1 : S128x128.Idx → EReal) (b1 : S128.Idx → EReal)
    (w2 : S128.Idx → EReal) (b2 : S1x1.Idx → EReal) (t : Fin cfg0.N) (p : Fin 64) (q : Fin 128) (r s : Fin 1024)
    (hr : r.val = win0_6.index t (0 : Fin 2) * 64 + p.val) (hs : s.val = win0_6.index t (1 : Fin 2) * 128 + q.val) :
    ((cfg0.win 6).blk t).view.read (Elt Ideal) (edgeArray X W1 b1 w2 b2) (ix2 p q) = edge X W1 b1 w2 b2 r s := by
  rw [View.read_apply]
  show edge X W1 b1 w2 b2 _ _ = edge X W1 b1 w2 b2 r s
  congr 1 <;> apply Fin.ext
  · show win0_6.index t (0 : Fin 2) * 64 + 1 * p.val = r.val; omega
  · show win0_6.index t (1 : Fin 2) * 128 + 1 * q.val = s.val; omega

/-! ## What a point writes back -/

variable (V : (c : Dev nD) → (b : Ref sig .tc) → Buf (Elt Ideal) ((c : Thread nD τ).loc b))

/-- What point t writes back is block t of the matrix of edge weights of the arrays as the region finds them. -/
theorem flushed_eq
    (hpay : ∀ (v0 : Vec Ideal S64x128 .bf16) (v2 v11 : Vec Ideal S128x128 .bf16) (v15 : Vec Ideal S128 .f32)
      (v22 : Vec Ideal S128 .bf16) (v29 : Vec Ideal S1x1 .f32) (p : Fin 64) (q : Fin 128),
      k0_pay1 (F := Ideal) v0 v2 v11 v15 v22 v29 (ix2 p q)
        = Cert.Gcn.adjEntry (fun d => v0 (ix2 p d)) (fun d => v2 (ix2 q d)) (fun d h => v11 (ix2 d h))
            (fun h => v15 (ix1 h)) (fun h => v22 (ix1 h)) (v29 (ix2 (0 : Fin 1) (0 : Fin 1))))
    (c : Dev nD) (t : Fin cfg0.N) :
    (dat0 (F := Ideal) V c).flushed 6 t
      = ((cfg0.win 6).blk t).view.read (Elt Ideal)
          (edgeArray (V c main_v2) (V c main_v3) (V c main_arg2) (V c main_v4) (V c main_v1)) := by
  show (cfg0.win 6).cut (grid0.coords t) ((dat0 (F := Ideal) V c).after 6 t) = _
  rw [after0_6]
  unfold out0_6
  rw [View.canon_unit_zero hz2]
  simp only [View.ld_unit_zero (S := S64x128) hz2, View.ld_unit_zero (S := S128x128) hz2,
    View.ld_unit_zero (S := S128) hz1, View.ld_unit_zero (S := S1x1) hz2]
  obtain ⟨e00, e01, e10, e11, e20, e21, e3, e4, e50, e51, l0, l1⟩ := idx_facts t
  funext j
  obtain ⟨p, q, rfl⟩ : ∃ (p : Fin 64) (q : Fin 128), j = ix2 p q :=
    ⟨j 0, j 1, funext fun a => by match a with | ⟨0, _⟩ => rfl | ⟨1, _⟩ => rfl⟩
  have hx : (cfg0.win 6).xinj (grid0.coords t) (ix2 p q) = ix2 p q :=
    funext fun a => Fin.ext (by match a with | ⟨0, _⟩ => rfl | ⟨1, _⟩ => rfl)
  show k0_pay1 (F := Ideal) _ _ _ _ _ _ ((cfg0.win 6).xinj (grid0.coords t) (ix2 p q)) = _
  rw [hx, hpay]
  have hr : win0_6.index t (0 : Fin 2) * 64 + p.val < 1024 := by have := p.isLt; omega
  have hs : win0_6.index t (1 : Fin 2) * 128 + q.val < 1024 := by have := q.isLt; omega
  rw [edge_blk_at _ _ _ _ _ t p q ⟨_, hr⟩ ⟨_, hs⟩ rfl rfl]
  unfold edge
  have a0 : (fun d => iblk0 V c 0 t (ix2 p d)) = fun d => V c main_v2 (ix2 (⟨_, hr⟩ : Fin 1024) d) :=
    funext fun d => rows64_at (V c main_v2) t p d ⟨_, hr⟩ (by rw [e00]) e01
  have a1 : (fun d => iblk0 V c 1 t (ix2 q d)) = fun d => V c main_v2 (ix2 (⟨_, hs⟩ : Fin 1024) d) :=
    funext fun d => rows128_at (V c main_v2) t q d ⟨_, hs⟩ (by rw [e10]) e11
  have a2 : (fun d h => iblk0 V c 2 t (ix2 d h)) = fun d h => V c main_v3 (ix2 d h) :=
    funext fun d => funext fun h => w1_at (V c main_v3) t d h e20 e21
  have a3 : (fun h => iblk0 V c 3 t (ix1 h)) = fun h => V c main_arg2 (ix1 h) :=
    funext fun h => b1_at (V c main_arg2) t h e3
  have a4 : (fun h => iblk0 V c 4 t (ix1 h)) = fun h => V c main_v4 (ix1 h) :=
    funext fun h => w2_at (V c main_v4) t h e4
  have a5 : iblk0 V c 5 t (ix2 (0 : Fin 1) (0 : Fin 1)) = V c main_v1 (ix2 (0 : Fin 1) (0 : Fin 1)) :=
    b2_at (V c main_v1) t e50 e51
  rw [a0, a1, a2, a3, a4, a5]

/-! ## The blocks tile the matrix -/

/-- An index of the matrix is in point t's block iff each coordinate is in the block's range on its axis. -/
theorem mem_blk (t : Fin cfg0.N) (i : S1024x1024.Idx) :
    i ∈ ((cfg0.win 6).blk t).view.set ↔ ∀ a : Fin 2, win0_6.index t a * S64x128.size a ≤ (i a).val
      ∧ (i a).val < win0_6.index t a * S64x128.size a + S64x128.size a := by
  show i ∈ ((View.whole main_v5).slice (win0_6.rect t)).set ↔ _
  rw [View.set_slice_whole, Rect.mem_set_unit]
  exact Iff.rfl

/-- Every index of the matrix is in the block of some point that writes back. -/
theorem covered (i : S1024x1024.Idx) :
    ∃ t : Fin cfg0.N, (cfg0.win 6).flush t = true ∧ i ∈ ((cfg0.win 6).blk t).view.set := by
  have hi0 : (i 0).val < 1024 := (i 0).isLt
  have hi1 : (i 1).val < 1024 := (i 1).isLt
  obtain ⟨t, ht⟩ := idx_onto ⟨(i 0).val / 64, by omega⟩ ⟨(i 1).val / 128, by omega⟩
  have q0 : win0_6.index t (0 : Fin 2) = (i 0).val / 64 := congrFun ht 0
  have q1 : win0_6.index t (1 : Fin 2) = (i 1).val / 128 := congrFun ht 1
  refine ⟨t, flush0_6 t, ?_⟩
  rw [mem_blk]
  intro a
  match a with
  | ⟨0, _⟩ => show win0_6.index t (0 : Fin 2) * 64 ≤ (i 0).val ∧ (i 0).val < win0_6.index t (0 : Fin 2) * 64 + 64; omega
  | ⟨1, _⟩ => show win0_6.index t (1 : Fin 2) * 128 ≤ (i 1).val ∧ (i 1).val < win0_6.index t (1 : Fin 2) * 128 + 128; omega

/-! ## The matrix after the run -/

/-- After the region's run the matrix holds, at (r, s), the edge weight of rows r and s of the features. -/
theorem adj_array (V : (c : Dev nD) → (b : Ref sig .tc) → Buf (Elt Ideal) ((c : Thread nD τ).loc b))
    (hpay : ∀ (v0 : Vec Ideal S64x128 .bf16) (v2 v11 : Vec Ideal S128x128 .bf16) (v15 : Vec Ideal S128 .f32)
      (v22 : Vec Ideal S128 .bf16) (v29 : Vec Ideal S1x1 .f32) (p : Fin 64) (q : Fin 128),
      k0_pay1 (F := Ideal) v0 v2 v11 v15 v22 v29 (ix2 p q)
        = Cert.Gcn.adjEntry (fun d => v0 (ix2 p d)) (fun d => v2 (ix2 q d)) (fun d h => v11 (ix2 d h))
            (fun h => v15 (ix1 h)) (fun h => v22 (ix1 h)) (v29 (ix2 (0 : Fin 1) (0 : Fin 1))))
    (c : Dev nD) (r s : Fin 1024) :
    (dat0 (F := Ideal) V c).arrAt 6 cfg0.N (ix2 r s)
      = Cert.Gcn.adjEntry (fun d => V c main_v2 (ix2 r d)) (fun d => V c main_v2 (ix2 s d))
          (fun d h => V c main_v3 (ix2 d h)) (fun h => V c main_arg2 (ix1 h)) (fun h => V c main_v4 (ix1 h))
          (V c main_v1 (ix2 (0 : Fin 1) (0 : Fin 1))) := by
  have h := (dat0 (F := Ideal) V c).arrAt_eq_of_cover 6
    (edgeArray (V c main_v2) (V c main_v3) (V c main_arg2) (V c main_v4) (V c main_v1))
    (fun t _ => flushed_eq V hpay c t) covered
  rw [h]
  rfl

end Cert.KernelIdeal.AdjArray

end
-- ==== Proof.GcnArray.lean ====
/-
  From the second region's one block to the array: what the [1024, 128] output holds after the region.

  The region has one grid point; each of its five windows is its whole array, so the one block of each window sits at
  the array's origin and reads the array itself.  The body stores, over the whole output buffer, its payload of the four
  whole input buffers; the payload's entry (i, o) is the layer's entry (i, o) of the four arrays.  The one point writes
  its block back, the block covers the array, so the array ends holding the layer of the four input arrays.
-/
import proofs.«135860_j77386720739714_2_alg».proof.Proof.RegionGcnI
import proofs.«135860_j77386720739714_2_alg».proof.Proof.Spec
import Idealize.ShloMosaic.Lib.Pipeline.Value
import Idealize.ShloMosaic.Lib.ValueIdx

set_option maxRecDepth 16384

noncomputable section

namespace Cert.KernelIdeal.GcnArray

open Cert.KernelIdeal Cert.KernelIdeal.Gen Cert.KernelIdeal.Fr
open Idealize.ShloMosaic Idealize.ShloMosaic.TcCoe Idealize.ShloMosaic.ValueIdx
open Idealize.ShloMosaic.Pipeline (Dat)

/-! ## The body's accesses are whole buffers -/

/-- The origin of a rank-2 buffer, as the accesses spell it. -/
theorem origin2 : (![0, 0] : Fin 2 → Nat) = fun _ => 0 := funext fun a => by fin_cases a <;> rfl
/-- The origin of a rank-1 buffer, as the accesses spell it. -/
theorem origin1 : (![0] : Fin 1 → Nat) = fun _ => 0 := funext fun a => by fin_cases a <;> rfl

/-- The output buffer after the body is the payload of the four input buffers: each load takes its whole buffer, the
    one store fills the whole output buffer. -/
theorem out_eq_pay (x0 : Vec Ideal S1024x1024 .f32) (x1 : Vec Ideal S1024x128 .f32) (x2 : Vec Ideal S128x128 .f32)
    (x3 : Vec Ideal S128 .f32) : out1_4 (F := Ideal) x0 x1 x2 x3 = k1_pay1 (F := Ideal) x0 x1 x2 x3 := by
  unfold out1_4
  rw [View.canon_unit_zero origin2]
  rw [View.ld_unit_zero (S := S1024x1024) origin2, View.ld_unit_zero (S := S1024x128) origin2,
    View.ld_unit_zero (S := S128x128) origin2, View.ld_unit_zero (S := S128) origin1]

/-! ## The one block of each window is its array -/

/-- Over the one-point grid every window's block index is zero on every axis. -/
theorem index_zero0 : ∀ (t : Fin cfg1.N) (a : Fin 2), win1_0.index t a = 0 :=
  (by decide +kernel : ∀ (t : Fin grid1.N) (a : Fin 2), win1_0.index t a = 0)
theorem index_zero1 : ∀ (t : Fin cfg1.N) (a : Fin 2), win1_1.index t a = 0 :=
  (by decide +kernel : ∀ (t : Fin grid1.N) (a : Fin 2), win1_1.index t a = 0)
theorem index_zero2 : ∀ (t : Fin cfg1.N) (a : Fin 2), win1_2.index t a = 0 :=
  (by decide +kernel : ∀ (t : Fin grid1.N) (a : Fin 2), win1_2.index t a = 0)
theorem index_zero3 : ∀ (t : Fin cfg1.N) (a : Fin 1), win1_3.index t a = 0 :=
  (by decide +kernel : ∀ (t : Fin grid1.N) (a : Fin 1), win1_3.index t a = 0)
theorem index_zero4 : ∀ (t : Fin cfg1.N) (a : Fin 2), win1_4.index t a = 0 :=
  (by decide +kernel : ∀ (t : Fin grid1.N) (a : Fin 2), win1_4.index t a = 0)

/-- The block of the edge-weight matrix at any point, read off any contents X of the array, is X. -/
theorem read_blk0 (t : Fin cfg1.N) (X : S1024x1024.Idx → Elt Ideal .f32) :
    ((cfg1.win 0).blk t).view.read (Elt Ideal) X = X := by
  have hz : (fun a => win1_0.index t a * S1024x1024.size a) = fun _ => 0 :=
    funext fun a => by rw [index_zero0 t a]; exact Nat.zero_mul _
  exact Memref.read_access_unit_zero (Elt Ideal) main_v5 hz (fun a => by rw [congrFun hz a]; simp) X

/-- The block of the node features at any point, read off any contents X of the array, is X. -/
theorem read_blk1 (t : Fin cfg1.N) (X : S1024x128.Idx → Elt Ideal .f32) :
    ((cfg1.win 1).blk t).view.read (Elt Ideal) X = X := by
  have hz : (fun a => win1_1.index t a * S1024x128.size a) = fun _ => 0 :=
    funext fun a => by rw [index_zero1 t a]; exact Nat.zero_mul _
  exact Memref.read_access_unit_zero (Elt Ideal) main_arg0 hz (fun a => by rw [congrFun hz a]; simp) X

/-- The block of the layer's weight at any point, read off any contents X of the array, is X. -/
theorem read_blk2 (t : Fin cfg1.N) (X : S128x128.Idx → Elt Ideal .f32) :
    ((cfg1.win 2).blk t).view.read (Elt Ideal) X = X := by
  have hz : (fun a => win1_2.index t a * S128x128.size a) = fun _ => 0 :=
    funext fun a => by rw [index_zero2 t a]; exact Nat.zero_mul _
  exact Memref.read_access_unit_zero (Elt Ideal) main_arg5 hz (fun a => by rw [congrFun hz a]; simp) X

/-- The block of the layer's bias at any point, read off any contents X of the array, is X. -/
theorem read_blk3 (t : Fin cfg1.N) (X : S128.Idx → Elt Ideal .f32) :
    ((cfg1.win 3).blk t).view.read (Elt Ideal) X = X := by
  have hz : (fun a => win1_3.index t a * S128.size a) = fun _ => 0 :=
    funext fun a => by rw [index_zero3 t a]; exact Nat.zero_mul _
  exact Memref.read_access_unit_zero (Elt Ideal) main_arg6 hz (fun a => by rw [congrFun hz a]; simp) X

/-- The block of the output at any point, read off any contents X of the array, is X. -/
theorem read_blk4 (t : Fin cfg1.N) (X : S1024x128.Idx → Elt Ideal .f32) :
    ((cfg1.win 4).blk t).view.read (Elt Ideal) X = X := by
  have hz : (fun a => win1_4.index t a * S1024x128.size a) = fun _ => 0 :=
    funext fun a => by rw [index_zero4 t a]; exact Nat.zero_mul _
  exact Memref.read_access_unit_zero (Elt Ideal) main_v6 hz (fun a => by rw [congrFun hz a]; simp) X

/-- The write-back moves the whole output buffer: the block is not cut at the array's end. -/
theorem cut_eq4 (t : Fin cfg1.N) (X : S1024x128.Idx → Elt Ideal .f32) : (cfg1.win 4).cut (grid1.coords t) X = X := rfl

/-! ## The layer as one function of the output's index -/

/-- The layer's output array of the edge weights A, the node features x, the weight Wg and the bias bg. -/
def layer (A : S1024x1024.Idx → Elt Ideal .f32) (x : S1024x128.Idx → Elt Ideal .f32) (Wg : S128x128.Idx → Elt Ideal .f32)
    (bg : S128.Idx → Elt Ideal .f32) : S1024x128.Idx → Elt Ideal .f32 :=
  fun j => Cert.Gcn.gcnEntry (fun r k => A (ix2 r k)) (fun k d => x (ix2 k d)) (fun d o => Wg (ix2 d o)) (fun o => bg (ix1 o)) (j 0) (j 1)

/-- At the index (i, o) it is the layer's entry (i, o). -/
theorem layer_apply (A : S1024x1024.Idx → Elt Ideal .f32) (x : S1024x128.Idx → Elt Ideal .f32) (Wg : S128x128.Idx → Elt Ideal .f32)
    (bg : S128.Idx → Elt Ideal .f32) (i : Fin 1024) (o : Fin 128) :
    layer A x Wg bg (ix2 i o) = Cert.Gcn.gcnEntry (fun r k => A (ix2 r k)) (fun k d => x (ix2 k d)) (fun d o' => Wg (ix2 d o')) (fun o' => bg (ix1 o')) i o := rfl

/-! ## The one block covers the array -/

/-- An index of the output array is in point t's block iff each coordinate is in the block's range on its axis. -/
theorem mem_blk (t : Fin cfg1.N) (j : S1024x128.Idx) :
    j ∈ ((cfg1.win 4).blk t).view.set ↔ ∀ a : Fin 2, win1_4.index t a * S1024x128.size a ≤ (j a).val ∧ (j a).val < win1_4.index t a * S1024x128.size a + S1024x128.size a := by
  show j ∈ ((View.whole main_v6).slice (win1_4.rect t)).set ↔ _
  rw [View.set_slice_whole, Rect.mem_set_unit]
  exact Iff.rfl

/-- Every index of the output array is in the one point's block, and the point writes its block back. -/
theorem cover (j : S1024x128.Idx) : ∃ t : Fin cfg1.N, (cfg1.win 4).flush t = true ∧ j ∈ ((cfg1.win 4).blk t).view.set := by
  refine ⟨t1_0, flush1_4 t1_0, ?_⟩
  rw [mem_blk]
  intro a
  rw [index_zero4 t1_0 a]
  have h := (j a).isLt
  constructor
  · omega
  · rw [Nat.zero_mul, Nat.zero_add]; exact h

/-! ## The array after the region -/

section
variable (hpay : ∀ (v0 : Vec Ideal S1024x1024 .f32) (v10 : Vec Ideal S1024x128 .f32) (v11 : Vec Ideal S128x128 .f32) (v18 : Vec Ideal S128 .f32) (i : Fin 1024) (o : Fin 128),
      k1_pay1 (F := Ideal) v0 v10 v11 v18 (ix2 i o) = Cert.Gcn.gcnEntry (fun r j => v0 (ix2 r j)) (fun j d => v10 (ix2 j d)) (fun d o' => v11 (ix2 d o')) (fun o' => v18 (ix1 o')) i o)
include hpay

/-- The payload of four buffers is the layer of the four, entry by entry. -/
theorem pay_eq_layer (x0 : Vec Ideal S1024x1024 .f32) (x1 : Vec Ideal S1024x128 .f32) (x2 : Vec Ideal S128x128 .f32)
    (x3 : Vec Ideal S128 .f32) : k1_pay1 (F := Ideal) x0 x1 x2 x3 = layer x0 x1 x2 x3 := by
  funext j
  obtain ⟨i, o, rfl⟩ : ∃ (i : Fin 1024) (o : Fin 128), j = ix2 i o := ⟨j 0, j 1, eq_ix2 j⟩
  exact (hpay x0 x1 x2 x3 i o).trans (layer_apply x0 x1 x2 x3 i o).symm

variable (V : (c : Dev nD) → (b : Ref sig .tc) → Buf (Elt Ideal) ((c : Thread nD τ).loc b))

/-- What the one point writes back is its block of the layer of the four arrays as the region finds them. -/
theorem flushed_eq (c : Dev nD) (t : Fin cfg1.N) :
    (dat1 (F := Ideal) V c).flushed 4 t
      = ((cfg1.win 4).blk t).view.read (Elt Ideal) (layer (V c main_v5) (V c main_arg0) (V c main_arg5) (V c main_arg6)) := by
  show (cfg1.win 4).cut (grid1.coords t) ((dat1 V c).after 4 t) = _
  rw [after1_4, out_eq_pay, cut_eq4, read_blk4, pay_eq_layer hpay]
  unfold iblk1
  rw [read_blk0, read_blk1, read_blk2, read_blk3]

/-- The output array after the region is the layer of the four arrays as the region finds them. -/
theorem array_eq_layer (c : Dev nD) :
    (dat1 (F := Ideal) V c).arrAt 4 cfg1.N = layer (V c main_v5) (V c main_arg0) (V c main_arg5) (V c main_arg6) :=
  (dat1 (F := Ideal) V c).arrAt_eq_of_cover 4 (layer (V c main_v5) (V c main_arg0) (V c main_arg5) (V c main_arg6))
    (fun t _ => flushed_eq hpay V c t) cover

end

/-- The output array's entry (i, o) after the region is the layer's entry (i, o) of the edge weights, the node
    features, the weight and the bias as the region finds them. -/
theorem gcn_array (V : (c : Dev nD) → (b : Ref sig .tc) → Buf (Elt Ideal) ((c : Thread nD τ).loc b))
    (hpay : ∀ (v0 : Vec Ideal S1024x1024 .f32) (v10 : Vec Ideal S1024x128 .f32) (v11 : Vec Ideal S128x128 .f32) (v18 : Vec Ideal S128 .f32) (i : Fin 1024) (o : Fin 128),
      k1_pay1 (F := Ideal) v0 v10 v11 v18 (ix2 i o) = Cert.Gcn.gcnEntry (fun r j => v0 (ix2 r j)) (fun j d => v10 (ix2 j d)) (fun d o' => v11 (ix2 d o')) (fun o' => v18 (ix1 o')) i o)
    (c : Dev nD) (i : Fin 1024) (o : Fin 128) :
    (dat1 (F := Ideal) V c).arrAt 4 cfg1.N (ix2 i o) = Cert.Gcn.gcnEntry (fun r j => V c main_v5 (ix2 r j)) (fun j d => V c main_arg0 (ix2 j d)) (fun d o' => V c main_arg5 (ix2 d o')) (fun o' => V c main_arg6 (ix1 o')) i o :=
  (congrFun (array_eq_layer hpay V c) (ix2 i o)).trans (layer_apply (V c main_v5) (V c main_arg0) (V c main_arg5) (V c main_arg6) i o)

end Cert.KernelIdeal.GcnArray

end
-- ==== Proof.PayAdj.lean ====
/-
  The first kernel's payload read at one entry (p, q): the edge weight of the rows p and q.

  The payload forms |xi p d − xj q d| over (p, q, d), flattens the pair (p, q) to the row p·128 + q, multiplies by
  W1 with a zero accumulator, unflattens, adds b1 h, takes the maximum with 0, multiplies by w2 h, sums over h,
  adds b2 and applies the logistic function. Each operation is read at an index by a small lemma over variables;
  the last theorem chains them.
-/
import proofs.«135860_j77386720739714_2_alg».proof.Proof.Gen.KernelIdeal.Skeleton
import proofs.«135860_j77386720739714_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Gcn.PayAdj

open Cert.KernelIdeal Cert.KernelIdeal.Gen Idealize.ShloMosaic Idealize.ShloMosaic.ValueIdx

/-! ## Layout operations at an index -/

section Layout
variable {α : Type}

/-- A [64,128] array viewed [64,1,128] reads, at (p, u, d), the operand at (p, d). -/
theorem cast_rows_unit (x : (⟨2, ![64, 128]⟩ : Shape).Idx → α)
    (h : (⟨2, ![64, 128]⟩ : Shape).ShapeCasts ⟨3, ![64, 1, 128]⟩) (p : Fin 64) (u : Fin 1) (d : Fin 128) :
    shapeCast ⟨3, ![64, 1, 128]⟩ x h (ix3 p u d) = x (ix2 p d) :=
  shapeCast_apply x h _ _ (by
    have hu : u.val = 0 := by omega
    rw [Shape.rowMajor_val_three, Shape.rowMajor_val_two]
    show p.val * 128 + d.val = (p.val * 1 + u.val) * 128 + d.val
    omega)

/-- A [64,1,128] array broadcast to [64,128,128] reads, at (p, q, d), the operand at (p, 0, d). -/
theorem bcast_rows (x : (⟨3, ![64, 1, 128]⟩ : Shape).Idx → α)
    (h : (⟨3, ![64, 1, 128]⟩ : Shape).Broadcasts ⟨3, ![64, 128, 128]⟩) (p : Fin 64) (q : Fin 128) (d : Fin 128) :
    broadcastTo ⟨3, ![64, 128, 128]⟩ x h (ix3 p q d) = x (ix3 p (0 : Fin 1) d) := by
  refine broadcastTo_apply x h (ix3 p q d) (ix3 p (0 : Fin 1) d) fun ax => ?_
  match ax with
  | ⟨0, _⟩ => show p.val = if (64 : Nat) = 1 then 0 else p.val; rw [if_neg (by decide)]
  | ⟨1, _⟩ => show (0 : Nat) = if (1 : Nat) = 1 then 0 else q.val; rw [if_pos rfl]
  | ⟨2, _⟩ => show d.val = if (128 : Nat) = 1 then 0 else d.val; rw [if_neg (by decide)]

/-- A [1,128,128] array broadcast to [64,128,128] reads, at (p, q, d), the operand at (0, q, d). -/
theorem bcast_cols (x : (⟨3, ![1, 128, 128]⟩ : Shape).Idx → α)
    (h : (⟨3, ![1, 128, 128]⟩ : Shape).Broadcasts ⟨3, ![64, 128, 128]⟩) (p : Fin 64) (q : Fin 128) (d : Fin 128) :
    broadcastTo ⟨3, ![64, 128, 128]⟩ x h (ix3 p q d) = x (ix3 (0 : Fin 1) q d) := by
  refine broadcastTo_apply x h (ix3 p q d) (ix3 (0 : Fin 1) q d) fun ax => ?_
  match ax with
  | ⟨0, _⟩ => show (0 : Nat) = if (1 : Nat) = 1 then 0 else p.val; rw [if_pos rfl]
  | ⟨1, _⟩ => show q.val = if (128 : Nat) = 1 then 0 else q.val; rw [if_neg (by decide)]
  | ⟨2, _⟩ => show d.val = if (128 : Nat) = 1 then 0 else d.val; rw [if_neg (by decide)]

/-- The row of the flattened [8192,128] array that holds the pair (p, q): p·128 + q. -/
def row (p : Fin 64) (q : Fin 128) : Fin 8192 := ⟨p.val * 128 + q.val, by have := p.isLt; have := q.isLt; omega⟩

/-- A [64,128,128] array flattened to [8192,128] reads, at (p·128 + q, d), the operand at (p, q, d). -/
theorem cast_flatten (x : (⟨3, ![64, 128, 128]⟩ : Shape).Idx → α)
    (h : (⟨3, ![64, 128, 128]⟩ : Shape).ShapeCasts ⟨2, ![8192, 128]⟩) (p : Fin 64) (q : Fin 128) (d : Fin 128) :
    shapeCast ⟨2, ![8192, 128]⟩ x h (ix2 (row p q) d) = x (ix3 p q d) :=
  shapeCast_apply x h _ _ (by
    rw [Shape.rowMajor_val_three, Shape.rowMajor_val_two]
    show (p.val * 128 + q.val) * 128 + d.val = (p.val * 128 + q.val) * 128 + d.val
    rfl)

/-- An [8192,128] array viewed [64,128,128] reads, at (p, q, c), the operand at (p·128 + q, c). -/
theorem cast_unflatten (x : (⟨2, ![8192, 128]⟩ : Shape).Idx → α)
    (h : (⟨2, ![8192, 128]⟩ : Shape).ShapeCasts ⟨3, ![64, 128, 128]⟩) (p : Fin 64) (q : Fin 128) (c : Fin 128) :
    shapeCast ⟨3, ![64, 128, 128]⟩ x h (ix3 p q c) = x (ix2 (row p q) c) :=
  shapeCast_apply x h _ _ (by
    rw [Shape.rowMajor_val_three, Shape.rowMajor_val_two]
    show (p.val * 128 + q.val) * 128 + c.val = (p.val * 128 + q.val) * 128 + c.val
    rfl)

/-- A [128] array viewed [1,1,128] reads, at (u, v, c), the operand at c. -/
theorem cast_vec_units (x : (⟨1, ![128]⟩ : Shape).Idx → α)
    (h : (⟨1, ![128]⟩ : Shape).ShapeCasts ⟨3, ![1, 1, 128]⟩) (u v : Fin 1) (c : Fin 128) :
    shapeCast ⟨3, ![1, 1, 128]⟩ x h (ix3 u v c) = x (ix1 c) :=
  shapeCast_apply x h _ _ (by
    have hu : u.val = 0 := by omega
    have hv : v.val = 0 := by omega
    rw [Shape.rowMajor_val_three, Shape.rowMajor_val_one]
    show c.val = (u.val * 1 + v.val) * 128 + c.val
    omega)

/-- A [1,1,128] array broadcast to [64,128,128] reads, at (p, q, c), the operand at (0, 0, c). -/
theorem bcast_lanes (x : (⟨3, ![1, 1, 128]⟩ : Shape).Idx → α)
    (h : (⟨3, ![1, 1, 128]⟩ : Shape).Broadcasts ⟨3, ![64, 128, 128]⟩) (p : Fin 64) (q : Fin 128) (c : Fin 128) :
    broadcastTo ⟨3, ![64, 128, 128]⟩ x h (ix3 p q c) = x (ix3 (0 : Fin 1) (0 : Fin 1) c) := by
  refine broadcastTo_apply x h (ix3 p q c) (ix3 (0 : Fin 1) (0 : Fin 1) c) fun ax => ?_
  match ax with
  | ⟨0, _⟩ => show (0 : Nat) = if (1 : Nat) = 1 then 0 else p.val; rw [if_pos rfl]
  | ⟨1, _⟩ => show (0 : Nat) = if (1 : Nat) = 1 then 0 else q.val; rw [if_pos rfl]
  | ⟨2, _⟩ => show c.val = if (128 : Nat) = 1 then 0 else c.val; rw [if_neg (by decide)]

/-- A [1,1] array broadcast to [64,128] reads its one element everywhere. -/
theorem bcast_one (x : (⟨2, ![1, 1]⟩ : Shape).Idx → α)
    (h : (⟨2, ![1, 1]⟩ : Shape).Broadcasts ⟨2, ![64, 128]⟩) (p : Fin 64) (q : Fin 128) :
    broadcastTo ⟨2, ![64, 128]⟩ x h (ix2 p q) = x (ix2 (0 : Fin 1) (0 : Fin 1)) := by
  refine broadcastTo_apply x h (ix2 p q) (ix2 (0 : Fin 1) (0 : Fin 1)) fun ax => ?_
  match ax with
  | ⟨0, _⟩ => show (0 : Nat) = if (1 : Nat) = 1 then 0 else p.val; rw [if_pos rfl]
  | ⟨1, _⟩ => show (0 : Nat) = if (1 : Nat) = 1 then 0 else q.val; rw [if_pos rfl]

end Layout

/-! ## The matrix product at an index

The contraction runs over one axis of extent 128; its index set is re-indexed by that axis's coordinate. -/

section Matmul

/-- The left operand's index at output index `i` and contraction index `k`: row `i 0` … -/
theorem lhs_row (i : S8192x128.Idx) (k : dot_S8192x128_S128x128_S8192x128_1_0_0_1_n_n.contr.Idx) :
    (dot_S8192x128_S128x128_S8192x128_1_0_0_1_n_n.lhsIdx i k 0).val = (i 0).val := by
  unfold DotDims.lhsIdx
  rw [dif_neg (show ¬(0 : Fin S8192x128.rank) ∈ dot_S8192x128_S128x128_S8192x128_1_0_0_1_n_n.lhsBatch by decide),
    dif_pos (show (0 : Fin S8192x128.rank) ∈ dot_S8192x128_S128x128_S8192x128_1_0_0_1_n_n.lhsNonContracting by decide)]
  rfl
/-- … and column the contraction coordinate. -/
theorem lhs_col (i : S8192x128.Idx) (k : dot_S8192x128_S128x128_S8192x128_1_0_0_1_n_n.contr.Idx) :
    (dot_S8192x128_S128x128_S8192x128_1_0_0_1_n_n.lhsIdx i k 1).val = (k ⟨0, by decide⟩).val :=
  dot_S8192x128_S128x128_S8192x128_1_0_0_1_n_n.lhsIdx_val_of_single rfl i k
/-- The right operand's index: row the contraction coordinate … -/
theorem rhs_row (i : S8192x128.Idx) (k : dot_S8192x128_S128x128_S8192x128_1_0_0_1_n_n.contr.Idx) :
    (dot_S8192x128_S128x128_S8192x128_1_0_0_1_n_n.rhsIdx i k 0).val = (k ⟨0, by decide⟩).val :=
  dot_S8192x128_S128x128_S8192x128_1_0_0_1_n_n.rhsIdx_val_of_single rfl i k
/-- … and column `i 1`. -/
theorem rhs_col (i : S8192x128.Idx) (k : dot_S8192x128_S128x128_S8192x128_1_0_0_1_n_n.contr.Idx) :
    (dot_S8192x128_S128x128_S8192x128_1_0_0_1_n_n.rhsIdx i k 1).val = (i 1).val := by
  unfold DotDims.rhsIdx
  rw [dif_neg (show ¬(1 : Fin S128x128.rank) ∈ dot_S8192x128_S128x128_S8192x128_1_0_0_1_n_n.rhsBatch by decide),
    dif_pos (show (1 : Fin S128x128.rank) ∈ dot_S8192x128_S128x128_S8192x128_1_0_0_1_n_n.rhsNonContracting by decide)]
  rfl

/-- The product into the zero accumulator, at (r, c): Σ_d lhs (r, d) · rhs (d, c). -/
theorem matmul_entry (lhs : FVec Ideal S8192x128 .bf16) (rhs : FVec Ideal S128x128 .bf16) (r : Fin 8192) (c : Fin 128) :
    matmul dot_S8192x128_S128x128_S8192x128_1_0_0_1_n_n none lhs rhs (constant (F := Ideal) S8192x128 .f32 0x00000000#32) (ix2 r c)
      = ∑ d : Fin 128, lhs (ix2 r d) * rhs (ix2 d c) := by
  refine (Ideal.matmul_constant_zero_apply dot_S8192x128_S128x128_S8192x128_1_0_0_1_n_n none lhs rhs (ix2 r c)).trans ?_
  rw [← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 r c) ((contrEquiv1 dot_S8192x128_S128x128_S8192x128_1_0_0_1_n_n 128 rfl rfl).symm k) = ix2 r k :=
    funext fun a => Fin.ext (by
      match a with
      | ⟨0, _⟩ => exact lhs_row _ _
      | ⟨1, _⟩ => exact (lhs_col _ _).trans hk)
  have er : dot_S8192x128_S128x128_S8192x128_1_0_0_1_n_n.rhsIdx (ix2 r c) ((contrEquiv1 dot_S8192x128_S128x128_S8192x128_1_0_0_1_n_n 128 rfl rfl).symm k) = ix2 k c :=
    funext fun a => Fin.ext (by
      match a with
      | ⟨0, _⟩ => exact (rhs_row _ _).trans hk
      | ⟨1, _⟩ => exact rhs_col _ _)
  rw [el, er]

end Matmul

/-! ## The sum over the last axis at an index -/

/-- The sum over the last axis of a [64,128,128] array, at (p, q): Σ_c src (p, q, c). -/
theorem lane_sum (src : FVec Ideal S64x128x128 .f32) (h : S64x128x128.Reduces [2] S64x128) (hφ : FKind.Formats .f32)
    (hacc : (0x00000000#32 : BitVec 32) = 0x00000000#32) (p : Fin 64) (q : Fin 128) :
    multiReduction .add [2] S64x128 src 0x00000000#32 h hφ hacc (ix2 p q) = ∑ c : Fin 128, src (ix3 p q c) := by
  refine (Ideal.multiReduction_add_single src 0x00000000#32 h hφ hacc (ix2 p q)).trans ?_
  refine Finset.sum_congr rfl fun c _ => congrArg src ?_
  funext a
  refine Fin.ext ?_
  match a with
  | ⟨0, _⟩ => rfl
  | ⟨1, _⟩ => rfl
  | ⟨2, _⟩ => rfl

/-! ## Pointwise operations and congruences on the extended reals -/

/-- An absolute value at an index is the maximum of the element and its negation. -/
theorem absf_at {s : Shape} {φ : FTy} (a : FVec Ideal s φ) (i : s.Idx) : absf a i = max (a i) (-(a i)) := rfl
/-- A logistic at an index is the logistic function of the element. -/
theorem logistic_at {s : Shape} {φ : FTy} (a : FVec Ideal s φ) (i : s.Idx) : logistic a i = Ideal.logistic (a i) := rfl

theorem add_congr {a b c d : EReal} (h1 : a = c) (h2 : b = d) : a + b = c + d := by rw [h1, h2]
theorem sub_congr {a b c d : EReal} (h1 : a = c) (h2 : b = d) : a - b = c - d := by rw [h1, h2]
theorem mul_congr {a b c d : EReal} (h1 : a = c) (h2 : b = d) : a * b = c * d := by rw [h1, h2]
theorem max_congr {a b c d : EReal} (h1 : a = c) (h2 : b = d) : max a b = max c d := by rw [h1, h2]
theorem abs_congr {a c : EReal} (h : a = c) : max a (-a) = max c (-c) := by rw [h]

/-! ## The payload at (p, q) -/

/-- The first kernel's payload at (p, q) is the edge weight of row p of the first block and row q of the second. -/
theorem pay_adj (v0 : Vec Ideal S64x128 .bf16) (v2 : Vec Ideal S128x128 .bf16) (v11 : Vec Ideal S128x128 .bf16)
    (v15 : Vec Ideal S128 .f32) (v22 : Vec Ideal S128 .bf16) (v29 : Vec Ideal S1x1 .f32) (p : Fin 64) (q : Fin 128) :
    k0_pay1 (F := Ideal) v0 v2 v11 v15 v22 v29 (ix2 p q)
      = Cert.Gcn.adjEntry (fun d => v0 (ix2 p d)) (fun d => v2 (ix2 q d)) (fun d h => v11 (ix2 d h))
          (fun h => v15 (ix1 h)) (fun h => v22 (ix1 h)) (v29 (ix2 (0 : Fin 1) (0 : Fin 1))) := by
  -- the logistic of the logit
  refine (logistic_at _ _).trans ?_
  unfold Cert.Gcn.adjEntry
  refine congrArg Ideal.logistic ?_
  -- the logit: the sum over the hidden units, plus b2
  refine (addf_apply _ _ _).trans ?_
  refine add_congr ?_ ?_
  · refine (lane_sum _ _ _ _ p q).trans ?_
    refine Finset.sum_congr rfl fun c _ => ?_
    refine (extf_apply (φ := .bf16) (ψ := .f32) _ _ _).trans ?_
    refine (mulf_apply _ _ _).trans ?_
    refine mul_congr ?_ ?_
    · -- hidden unit c: the maximum of the affine form with 0
      refine (truncf_apply (φ := .f32) (ψ := .bf16) _ _ _).trans ?_
      refine (maximumf_apply _ _ _).trans ?_
      unfold Cert.Gcn.hidden
      refine max_congr ?_ rfl
      refine (addf_apply _ _ _).trans ?_
      refine add_congr ?_ ?_
      · -- the product with W1 at row p·128 + q
        refine (cast_unflatten _ _ p q c).trans ?_
        refine (matmul_entry _ _ (row p q) c).trans ?_
        refine Finset.sum_congr rfl fun d _ => ?_
        refine mul_congr ?_ ?_
        · refine (cast_flatten _ _ p q d).trans ?_
          refine (absf_at _ _).trans ?_
          refine abs_congr ?_
          refine (subf_apply _ _ _).trans ?_
          refine sub_congr ?_ ?_
          · refine (bcast_rows _ _ p q d).trans ?_
            refine (cast_rows_unit _ _ p (0 : Fin 1) d).trans ?_
            exact congrFun (shapeCast_self v0 _) _
          · refine (bcast_cols _ _ p q d).trans ?_
            refine (shapeCast_ab_1ab_apply _ _ (0 : Fin 1) q d).trans ?_
            exact congrFun (shapeCast_self v2 _) _
        · exact congrFun (shapeCast_self v11 _) _
      · -- b1 at c
        refine (bcast_lanes _ _ p q c).trans ?_
        exact cast_vec_units _ _ (0 : Fin 1) (0 : Fin 1) c
    · -- w2 at c
      refine (bcast_lanes _ _ p q c).trans ?_
      refine (cast_vec_units _ _ (0 : Fin 1) (0 : Fin 1) c).trans ?_
      exact congrFun (shapeCast_self v22 _) _
  · -- b2
    refine (bcast_one _ _ p q).trans ?_
    exact congrFun (shapeCast_self v29 _) _

end Cert.Gcn.PayAdj

end
-- ==== Proof.PayGcn.lean ====
/-
  The second call's payload, read at an index.

  With A the loaded edge-weight matrix, x the features, Wg the weights and bg the bias, the stored value at (i, o) is
  the leaky rectifier of  Σ_j (dinv i · A i j · dinv j) · (Σ_d x j d · Wg d o) + bg o,  where dinv r is the inverse
  square root of the row sum Σ_j A r j: each operation of the payload is read at an index given by coordinates, and the
  readings are chained from the outermost operation inwards.
-/
import proofs.«135860_j77386720739714_2_alg».proof.Proof.Gen.KernelIdeal.Skeleton
import proofs.«135860_j77386720739714_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Gcn.PayGcn

open Cert.KernelIdeal Cert.KernelIdeal.Gen Idealize.ShloMosaic Idealize.ShloMosaic.ValueIdx

/-! ## The keepdims column forms, read at an index -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` transposed to the row `[1, a]` reads, at `(u, r)`, the column at row `r`. -/
theorem transpose_a1_1a_apply {a : ℕ} (v : (⟨2, ![a, 1]⟩ : Shape).Idx → α)
    (h : (⟨2, ![a, 1]⟩ : Shape).Transposes [1, 0] ⟨2, ![1, a]⟩) (u : Fin 1) (r : Fin a) :
    transpose ⟨2, ![1, a]⟩ [1, 0] v h (ix2 u r) = v (ix2 r (0 : Fin 1)) := by
  have hu : u = 0 := Subsingleton.elim _ _
  subst hu
  exact transpose_ix2_apply v h 0 r

end Layout

/-! ## The row sums and the inverse square roots -/

/-- The sum over axis 1 of a `[1024, 1024]` matrix, at row `r`, is the sum of that row. -/
theorem rowSum_apply (A : FVec Ideal S1024x1024 .f32) (h : S1024x1024.Reduces [1] S1024) (hφ : FKind.Formats .f32)
    (hacc : (0x00000000#32 : BitVec 32) = 0x00000000#32) (r : Fin 1024) :
    multiReduction .add [1] S1024 A 0x00000000#32 h hφ hacc (ix1 r) = ∑ j : Fin 1024, A (ix2 r j) := by
  refine (Ideal.multiReduction_add_single A 0x00000000#32 h hφ hacc (ix1 r)).trans ?_
  refine Finset.sum_congr rfl fun j _ => congrArg A ?_
  funext a
  match a with
  | ⟨0, _⟩ => rfl
  | ⟨1, _⟩ => rfl

/-- The inverse square root of a vector, at an index, is the inverse square root of the element. -/
theorem rsqrt_apply {s : Shape} {φ : FTy} (x : FVec Ideal s φ) (i : s.Idx) : rsqrt x i = Ideal.rsqrt (x i) := rfl

/-- The column of inverse square roots of the row sums, at `(r, u)`: the specification's `dinv` at row `r`. -/
theorem dinvCol_apply (A : FVec Ideal S1024x1024 .f32) (h : S1024x1024.Reduces [1] S1024) (hφ : FKind.Formats .f32)
    (hacc : (0x00000000#32 : BitVec 32) = 0x00000000#32) (hc : S1024.ShapeCasts S1024x1) (r : Fin 1024) (u : Fin 1) :
    rsqrt (shapeCast S1024x1 (multiReduction .add [1] S1024 A 0x00000000#32 h hφ hacc) hc) (ix2 r u)
      = dinv (fun r j => A (ix2 r j)) r := by
  refine (rsqrt_apply _ _).trans (congrArg Ideal.rsqrt ?_)
  refine (shapeCast_a_a1_apply _ hc r u).trans ?_
  exact rowSum_apply A h hφ hacc r

/-! ## The normalised matrix -/

/-- `(broadcast(column) · A) · broadcast(row)` at `(i, j)`, for a column `c` and its transpose: `c i · A i j · c j`. -/
theorem normalised_apply (A : FVec Ideal S1024x1024 .f32) (c : FVec Ideal S1024x1 .f32)
    (ht : S1024x1.Transposes [1, 0] S1x1024) (hb : S1024x1.Broadcasts S1024x1024) (hb' : S1x1024.Broadcasts S1024x1024)
    (i j : Fin 1024) :
    mulf (mulf (broadcastTo S1024x1024 c hb) A) (broadcastTo S1024x1024 (transpose S1x1024 [1, 0] c ht) hb') (ix2 i j)
      = c (ix2 i (0 : Fin 1)) * A (ix2 i j) * c (ix2 j (0 : Fin 1)) := by
  refine (mulf_apply _ _ _).trans ?_
  refine congrArg₂ (· * ·) ?_ ?_
  · refine (mulf_apply _ _ _).trans ?_
    exact congrArg (· * A (ix2 i j)) (broadcastTo_a1_ab_apply c hb i j)
  · refine (broadcastTo_1b_ab_apply _ hb' i j).trans ?_
    exact transpose_a1_1a_apply c ht 0 j

/-! ## The two products on the matrix unit

Each product's dimension numbers contract one axis: the left operand's index at output `(r, c)` and contraction position
`k` is `(r, k)`, the right operand's `(k, c)`. -/

theorem proj_lhs0 (y : S1024x128.Idx) (q : dot_S1024x128_S128x128_S1024x128_1_0_0_1_n_n.contr.Idx) :
    (dot_S1024x128_S128x128_S1024x128_1_0_0_1_n_n.lhsIdx y q 0).val = (y 0).val := by
  unfold DotDims.lhsIdx
  rw [dif_neg (show ¬(0 : Fin S1024x128.rank) ∈ dot_S1024x128_S128x128_S1024x128_1_0_0_1_n_n.lhsBatch by decide),
    dif_pos (show (0 : Fin S1024x128.rank) ∈ dot_S1024x128_S128x128_S1024x128_1_0_0_1_n_n.lhsNonContracting by decide)]
  rfl
theorem proj_lhs1 (y : S1024x128.Idx) (q : dot_S1024x128_S128x128_S1024x128_1_0_0_1_n_n.contr.Idx) :
    (dot_S1024x128_S128x128_S1024x128_1_0_0_1_n_n.lhsIdx y q 1).val = (q ⟨0, by decide⟩).val :=
  dot_S1024x128_S128x128_S1024x128_1_0_0_1_n_n.lhsIdx_val_of_single rfl y q
theorem proj_rhs0 (y : S1024x128.Idx) (q : dot_S1024x128_S128x128_S1024x128_1_0_0_1_n_n.contr.Idx) :
    (dot_S1024x128_S128x128_S1024x128_1_0_0_1_n_n.rhsIdx y q 0).val = (q ⟨0, by decide⟩).val :=
  dot_S1024x128_S128x128_S1024x128_1_0_0_1_n_n.rhsIdx_val_of_single rfl y q
theorem proj_rhs1 (y : S1024x128.Idx) (q : dot_S1024x128_S128x128_S1024x128_1_0_0_1_n_n.contr.Idx) :
    (dot_S1024x128_S128x128_S1024x128_1_0_0_1_n_n.rhsIdx y q 1).val = (y 1).val := by
  unfold DotDims.rhsIdx
  rw [dif_neg (show ¬(1 : Fin S128x128.rank) ∈ dot_S1024x128_S128x128_S1024x128_1_0_0_1_n_n.rhsBatch by decide),
    dif_pos (show (1 : Fin S128x128.rank) ∈ dot_S1024x128_S128x128_S1024x128_1_0_0_1_n_n.rhsNonContracting by decide)]
  rfl

/-- The features times the weights, into zeros: at `(j, o)` the sum over `d` of `x j d · w d o`. -/
theorem proj_apply (x : FVec Ideal S1024x128 .bf16) (w : FVec Ideal S128x128 .bf16) (j : Fin 1024) (o : Fin 128) :
    matmul dot_S1024x128_S128x128_S1024x128_1_0_0_1_n_n none x w (constant S1024x128 .f32 0x00000000#32) (ix2 j o)
      = ∑ d : Fin 128, x (ix2 j d) * w (ix2 d o) := by
  refine (Ideal.matmul_constant_zero_apply dot_S1024x128_S128x128_S1024x128_1_0_0_1_n_n none x w (ix2 j o)).trans ?_
  refine (Equiv.sum_comp (contrEquiv1 dot_S1024x128_S128x128_S1024x128_1_0_0_1_n_n 128 rfl rfl).symm _).symm.trans ?_
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 j o) ((contrEquiv1 dot_S1024x128_S128x128_S1024x128_1_0_0_1_n_n 128 rfl rfl).symm k) = ix2 j k :=
    funext fun a => Fin.ext (by
      match a with
      | ⟨0, _⟩ => exact proj_lhs0 _ _
      | ⟨1, _⟩ => exact (proj_lhs1 _ _).trans hk)
  have er : dot_S1024x128_S128x128_S1024x128_1_0_0_1_n_n.rhsIdx (ix2 j o) ((contrEquiv1 dot_S1024x128_S128x128_S1024x128_1_0_0_1_n_n 128 rfl rfl).symm k) = ix2 k o :=
    funext fun a => Fin.ext (by
      match a with
      | ⟨0, _⟩ => exact (proj_rhs0 _ _).trans hk
      | ⟨1, _⟩ => exact proj_rhs1 _ _)
  rw [el, er]

theorem agg_lhs0 (y : S1024x128.Idx) (q : dot_S1024x1024_S1024x128_S1024x128_1_0_0_1_n_n.contr.Idx) :
    (dot_S1024x1024_S1024x128_S1024x128_1_0_0_1_n_n.lhsIdx y q 0).val = (y 0).val := by
  unfold DotDims.lhsIdx
  rw [dif_neg (show ¬(0 : Fin S1024x1024.rank) ∈ dot_S1024x1024_S1024x128_S1024x128_1_0_0_1_n_n.lhsBatch by decide),
    dif_pos (show (0 : Fin S1024x1024.rank) ∈ dot_S1024x1024_S1024x128_S1024x128_1_0_0_1_n_n.lhsNonContracting by decide)]
  rfl
theorem agg_lhs1 (y : S1024x128.Idx) (q : dot_S1024x1024_S1024x128_S1024x128_1_0_0_1_n_n.contr.Idx) :
    (dot_S1024x1024_S1024x128_S1024x128_1_0_0_1_n_n.lhsIdx y q 1).val = (q ⟨0, by decide⟩).val :=
  dot_S1024x1024_S1024x128_S1024x128_1_0_0_1_n_n.lhsIdx_val_of_single rfl y q
theorem agg_rhs0 (y : S1024x128.Idx) (q : dot_S1024x1024_S1024x128_S1024x128_1_0_0_1_n_n.contr.Idx) :
    (dot_S1024x1024_S1024x128_S1024x128_1_0_0_1_n_n.rhsIdx y q 0).val = (q ⟨0, by decide⟩).val :=
  dot_S1024x1024_S1024x128_S1024x128_1_0_0_1_n_n.rhsIdx_val_of_single rfl y q
theorem agg_rhs1 (y : S1024x128.Idx) (q : dot_S1024x1024_S1024x128_S1024x128_1_0_0_1_n_n.contr.Idx) :
    (dot_S1024x1024_S1024x128_S1024x128_1_0_0_1_n_n.rhsIdx y q 1).val = (y 1).val := by
  unfold DotDims.rhsIdx
  rw [dif_neg (show ¬(1 : Fin S1024x128.rank) ∈ dot_S1024x1024_S1024x128_S1024x128_1_0_0_1_n_n.rhsBatch by decide),
    dif_pos (show (1 : Fin S1024x128.rank) ∈ dot_S1024x1024_S1024x128_S1024x128_1_0_0_1_n_n.rhsNonContracting by decide)]
  rfl

/-- The normalised matrix times the projected features, into zeros: at `(i, o)` the sum over `j` of `n i j · p j o`. -/
theorem agg_apply (n : FVec Ideal S1024x1024 .bf16) (p : FVec Ideal S1024x128 .bf16) (i : Fin 1024) (o : Fin 128) :
    matmul dot_S1024x1024_S1024x128_S1024x128_1_0_0_1_n_n none n p (constant S1024x128 .f32 0x00000000#32) (ix2 i o)
      = ∑ j : Fin 1024, n (ix2 i j) * p (ix2 j o) := by
  refine (Ideal.matmul_constant_zero_apply dot_S1024x1024_S1024x128_S1024x128_1_0_0_1_n_n none n p (ix2 i o)).trans ?_
  refine (Equiv.sum_comp (contrEquiv1 dot_S1024x1024_S1024x128_S1024x128_1_0_0_1_n_n 1024 rfl rfl).symm _).symm.trans ?_
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 i o) ((contrEquiv1 dot_S1024x1024_S1024x128_S1024x128_1_0_0_1_n_n 1024 rfl rfl).symm k) = ix2 i k :=
    funext fun a => Fin.ext (by
      match a with
      | ⟨0, _⟩ => exact agg_lhs0 _ _
      | ⟨1, _⟩ => exact (agg_lhs1 _ _).trans hk)
  have er : dot_S1024x1024_S1024x128_S1024x128_1_0_0_1_n_n.rhsIdx (ix2 i o) ((contrEquiv1 dot_S1024x1024_S1024x128_S1024x128_1_0_0_1_n_n 1024 rfl rfl).symm k) = ix2 k o :=
    funext fun a => Fin.ext (by
      match a with
      | ⟨0, _⟩ => exact (agg_rhs0 _ _).trans hk
      | ⟨1, _⟩ => exact agg_rhs1 _ _)
  rw [el, er]

/-! ## The bias row and the rectifier -/

/-- The bias `[128]` viewed `[1, 128]` and broadcast over the rows reads, at `(i, o)`, the bias at `o`. -/
theorem biasRows_apply (b : FVec Ideal S128 .f32) (hc : S128.ShapeCasts S1x128) (hb : S1x128.Broadcasts S1024x128)
    (i : Fin 1024) (o : Fin 128) :
    broadcastTo S1024x128 (shapeCast S1x128 b hc) hb (ix2 i o) = b (ix1 o) :=
  (broadcastTo_1b_ab_apply _ hb i o).trans (shapeCast_a_1a_apply b hc 0 o)

/-- The select of `v` where `v > 0` and `0.2 · v` elsewhere, at an index, is the leaky rectifier of the element. -/
theorem leaky_apply (v : FVec Ideal S1024x128 .f32) (i : S1024x128.Idx) :
    select (cmpf .ogt v (broadcast S1024x128 (Scalar.ofBits (F := Ideal) .f32 0x00000000#32))) v
        (mulf (broadcast S1024x128 (Scalar.ofBits (F := Ideal) .f32 0x3E4CCCCD#32)) v) i
      = leaky (v i) := rfl

/-! ## The payload at an index -/

/-- The second call's payload at `(i, o)` is the specification's entry of the loaded matrix, features, weights and
    bias: the rectifier's argument is the sum over `j` of the normalised weight times the projected features, plus the
    bias. -/
theorem pay_gcn (v0 : Vec Ideal S1024x1024 .f32) (v10 : Vec Ideal S1024x128 .f32) (v11 : Vec Ideal S128x128 .f32)
    (v18 : Vec Ideal S128 .f32) (i : Fin 1024) (o : Fin 128) :
    k1_pay1 (F := Ideal) v0 v10 v11 v18 (ix2 i o)
      = Cert.Gcn.gcnEntry (fun r j => v0 (ix2 r j)) (fun j d => v10 (ix2 j d)) (fun d o' => v11 (ix2 d o'))
          (fun o' => v18 (ix1 o')) i o := by
  unfold k1_pay1
  refine (leaky_apply _ (ix2 i o)).trans (congrArg leaky ?_)
  refine (addf_apply _ _ _).trans ?_
  refine congrArg₂ (· + ·) ?_ (biasRows_apply v18 _ _ i o)
  refine (agg_apply _ _ i o).trans ?_
  refine Finset.sum_congr rfl fun j _ => ?_
  refine congrArg₂ (· * ·) ?_ ?_
  · refine (truncf_apply (φ := .f32) (ψ := .bf16) _ _ _).trans ?_
    refine (normalised_apply _ _ _ _ _ i j).trans ?_
    refine (congrArg₂ (· * ·) (congrArg (· * _) (dinvCol_apply _ _ _ _ _ i 0)) (dinvCol_apply _ _ _ _ _ j 0)).trans ?_
    exact congrArg (fun A : FVec Ideal S1024x1024 .f32 =>
      dinv (fun r j => A (ix2 r j)) i * A (ix2 i j) * dinv (fun r j => A (ix2 r j)) j) (shapeCast_self v0 _)
  · refine (truncf_apply (φ := .f32) (ψ := .bf16) _ _ _).trans ?_
    exact proj_apply _ _ j o

end Cert.Gcn.PayGcn

end
-- ==== Proof.HostLines.lean ====
/-
  The five host lines before the first kernel region, read at an index.

  From any contents W of the buffers, the lines leave: in main_v2 and main_v3 the first two arguments element for
  element (a change of float format is the identity on the extended reals); in main_v4 the column main_arg3 read as a
  vector, main_v4 h = main_arg3 (h, 0); in main_v1 the one element of main_arg4; and every other buffer as it was.
-/
import proofs.«135860_j77386720739714_2_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostLines

open Cert.KernelIdeal Cert.KernelIdeal.Gen Idealize.ShloMosaic Idealize.ShloMosaic.TcCoe Idealize.ShloMosaic.ValueIdx

/-! ## A column read as a vector -/

/-- A column `[a, 1]` cast to `[a]` reads, at `i`, the column at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-! ## The buffers after the five lines -/

section Lines
variable (W : Valuation τ sig (Elt Ideal))

/-- `main_v2` is the first argument, element for element. -/
theorem feat_narrow (i : Fin 1024) (d : Fin 128) :
    (StableHlo.after (hostOps0 (F := Ideal)) W (Proc.devRef .tc main_v2) : S1024x128.Idx → EReal) (ix2 i d)
      = (W (Proc.devRef .tc main_arg0) : S1024x128.Idx → EReal) (ix2 i d) := by
  dsimp only [hostOps0]
  after_results
  rfl

/-- `main_v3` is the second argument, element for element. -/
theorem w1_narrow (d h : Fin 128) :
    (StableHlo.after (hostOps0 (F := Ideal)) W (Proc.devRef .tc main_v3) : S128x128.Idx → EReal) (ix2 d h)
      = (W (Proc.devRef .tc main_arg1) : S128x128.Idx → EReal) (ix2 d h) := by
  dsimp only [hostOps0]
  after_results
  rfl

/-- `main_v4` is the column `main_arg3` read as a vector: at `h` the column at `(h, 0)`. -/
theorem w2_vec (h : Fin 128) :
    (StableHlo.after (hostOps0 (F := Ideal)) W (Proc.devRef .tc main_v4) : S128.Idx → EReal) (ix1 h)
      = (W (Proc.devRef .tc main_arg3) : S128x1.Idx → EReal) (ix2 h (0 : Fin 1)) := by
  dsimp only [hostOps0]
  after_results
  exact shapeCast_a1_a_apply (W (Proc.devRef .tc main_arg3) : S128x1.Idx → EReal) shapeCasts_S128x1_S128 h

/-- `main_v1` holds the one element of `main_arg4`. -/
theorem b2_mat :
    (StableHlo.after (hostOps0 (F := Ideal)) W (Proc.devRef .tc main_v1) : S1x1.Idx → EReal) (ix2 (0 : Fin 1) (0 : Fin 1))
      = (W (Proc.devRef .tc main_arg4) : S1.Idx → EReal) (ix1 (0 : Fin 1)) := by
  dsimp only [hostOps0]
  after_results
  exact shapeCast_a_1a_apply (W (Proc.devRef .tc main_arg4) : S1.Idx → EReal) shapeCasts_S1_S1x1 0 0

/-- A buffer none of the five lines writes holds what it held. -/
theorem kept (r : Ref sig .tc) (h : r ∉ ([main_v0, main_v1, main_v2, main_v3, main_v4] : List (Ref sig .tc))) :
    StableHlo.after (hostOps0 (F := Ideal)) W (Proc.devRef .tc r) = W (Proc.devRef .tc r) :=
  StableHlo.after_of_writes_sub hostOps0 W hostOps0_writes h

end Lines

end Cert.KernelIdeal.HostLines

end
-- ==== Proof.KernelValue.lean ====
/-
  What the idealized kernel's two results hold after the run, entry by entry, as functions of the launch memory.

  The matrix of edge weights is the first region's write-backs: block (a, b) of it is the body's payload of rows
  64a… and 128b… of the narrow-format features, which the host lines made from the first argument element for
  element; so entry (r, s) is the edge weight of rows r and s of the first argument, with the perceptron's parameters
  read off arguments 1–4 (the second layer's weights through the host's reshape of the [128, 1] column).  The layer's
  output is the second region's one write-back: its payload of that matrix and of arguments 0, 5 and 6, which nothing
  before it changed.
-/
import proofs.«135860_j77386720739714_2_alg».proof.Proof.RunI
import proofs.«135860_j77386720739714_2_alg».proof.Proof.AdjArray
import proofs.«135860_j77386720739714_2_alg».proof.Proof.GcnArray
import proofs.«135860_j77386720739714_2_alg».proof.Proof.PayAdj
import proofs.«135860_j77386720739714_2_alg».proof.Proof.PayGcn
import proofs.«135860_j77386720739714_2_alg».proof.Proof.HostLines
import proofs.«135860_j77386720739714_2_alg».proof.Proof.Spec

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx

variable (m : (ℓ : Loc nD τ sig) → Buf (Elt Ideal) ℓ) (ρ : Dev nD → PrngReg)

/-- The edge weight of nodes `r`, `s` read off the launch memory's arguments. -/
def adjOf (c : Dev nD) (r s : Fin 1024) : EReal :=
  Cert.Gcn.adjEntry (fun d => m ((c.tc : Thread nD τ).loc main_arg0) (ix2 r d)) (fun d => m ((c.tc : Thread nD τ).loc main_arg0) (ix2 s d))
    (fun d h => m ((c.tc : Thread nD τ).loc main_arg1) (ix2 d h)) (fun h => m ((c.tc : Thread nD τ).loc main_arg2) (ix1 h))
    (fun h => m ((c.tc : Thread nD τ).loc main_arg3) (ix2 h (0 : Fin 1))) (m ((c.tc : Thread nD τ).loc main_arg4) (ix1 (0 : Fin 1)))

/-- The first region finds the narrow-format features equal to the first argument, element for element. -/
theorem feat_at (c : Dev nD) (r : Fin 1024) (d : Fin 128) :
    E1 m ρ c main_v2 (ix2 r d) = m ((c.tc : Thread nD τ).loc main_arg0) (ix2 r d) :=
  HostLines.feat_narrow (M0 m ρ c) r d
theorem w1_at (c : Dev nD) (d h : Fin 128) :
    E1 m ρ c main_v3 (ix2 d h) = m ((c.tc : Thread nD τ).loc main_arg1) (ix2 d h) :=
  HostLines.w1_narrow (M0 m ρ c) d h
theorem b1_at (c : Dev nD) (h : Fin 128) :
    E1 m ρ c main_arg2 (ix1 h) = m ((c.tc : Thread nD τ).loc main_arg2) (ix1 h) :=
  congrFun (HostLines.kept (M0 m ρ c) main_arg2 (by decide)) (ix1 h)
theorem w2_at (c : Dev nD) (h : Fin 128) :
    E1 m ρ c main_v4 (ix1 h) = m ((c.tc : Thread nD τ).loc main_arg3) (ix2 h (0 : Fin 1)) :=
  HostLines.w2_vec (M0 m ρ c) h
theorem b2_at (c : Dev nD) :
    E1 m ρ c main_v1 (ix2 (0 : Fin 1) (0 : Fin 1)) = m ((c.tc : Thread nD τ).loc main_arg4) (ix1 (0 : Fin 1)) :=
  HostLines.b2_mat (M0 m ρ c)

/-- The matrix of edge weights as the first region leaves it. -/
theorem adj_left (c : Dev nD) (r s : Fin 1024) :
    (dat0 (F := Ideal) (E1 m ρ) c).arrAt 6 cfg0.N (ix2 r s) = adjOf m c r s := by
  refine (AdjArray.adj_array (E1 m ρ) (fun v0 v2 v11 v15 v22 v29 p q => Cert.Gcn.PayAdj.pay_adj v0 v2 v11 v15 v22 v29 p q) c r s).trans ?_
  unfold adjOf
  exact congr (congr (congr (congr (congr (congrArg Cert.Gcn.adjEntry (funext fun d => feat_at m ρ c r d))
    (funext fun d => feat_at m ρ c s d)) (funext fun d => funext fun h => w1_at m ρ c d h)) (funext fun h => b1_at m ρ c h))
    (funext fun h => w2_at m ρ c h)) (b2_at m ρ c)

/-- The matrix of edge weights in the last valuation. -/
theorem adj_value (c : Dev nD) (r s : Fin 1024) :
    M3 m ρ c (Proc.devRef .tc main_v5) (ix2 r s) = adjOf m c r s :=
  (congrFun ((M3_of_ne m ρ c main_v5 (by decide)).trans (M2_v5 m ρ c)) (ix2 r s)).trans (adj_left m ρ c r s)

/-- An argument no host line writes is, at the second region's entry, as launched. -/
theorem arg_at_E2 (c : Dev nD) (b : Ref sig .tc) (h5 : b ≠ main_v5) (hW : b ∉ ([main_v0, main_v1, main_v2, main_v3, main_v4] : List (Ref sig .tc))) :
    E2 m ρ c b = m ((c.tc : Thread nD τ).loc b) :=
  (M2_of_ne m ρ c b h5).trans (HostLines.kept (M0 m ρ c) b hW)

/-- The layer's output in the last valuation. -/
theorem out_value (c : Dev nD) (i : Fin 1024) (o : Fin 128) :
    M3 m ρ c (Proc.devRef .tc main_v6) (ix2 i o)
      = Cert.Gcn.gcnEntry (adjOf m c) (fun j d => m ((c.tc : Thread nD τ).loc main_arg0) (ix2 j d))
          (fun d o' => m ((c.tc : Thread nD τ).loc main_arg5) (ix2 d o')) (fun o' => m ((c.tc : Thread nD τ).loc main_arg6) (ix1 o')) i o := by
  refine (congrFun (M3_v6 m ρ c) (ix2 i o)).trans ?_
  refine (GcnArray.gcn_array (E2 m ρ) (fun v0 v10 v11 v18 i o => Cert.Gcn.PayGcn.pay_gcn v0 v10 v11 v18 i o) c i o).trans ?_
  have hA : (fun r j => E2 m ρ c main_v5 (ix2 r j)) = adjOf m c :=
    funext fun r => funext fun j => (congrFun (M2_v5 m ρ c) (ix2 r j)).trans (adj_left m ρ c r j)
  exact congr (congr (congr (congr (congr (congrArg Cert.Gcn.gcnEntry hA)
    (funext fun j => funext fun d => congrFun (arg_at_E2 m ρ c main_arg0 (by decide) (by decide)) (ix2 j d)))
    (funext fun d => funext fun o' => congrFun (arg_at_E2 m ρ c main_arg5 (by decide) (by decide)) (ix2 d o')))
    (funext fun o' => congrFun (arg_at_E2 m ρ c main_arg6 (by decide) (by decide)) (ix1 o'))) rfl) rfl

end Cert.KernelIdeal.Val

end
-- ==== Proof.RefIsSpec.lean ====
/-
  The reference program, read entry by entry, computes the shared specification.

  The edge weights: the entry (i, j) of the reference's adjacency is the logistic function of the two-layer
  perceptron's logit on |x_i − x_j|. The reference spells the logistic as 1 / (1 + exp(−v)), which is the
  definition of the logistic function on the extended reals.

  The output: the entry (i, o) is the leaky rectifier of Σ_j ((dinv i · A i j) · dinv j) · (Σ_d x j d · Wg d o) + bg o,
  where dinv r is the inverse square root of 0 + Σ_j A r j.
-/
import proofs.«135860_j77386720739714_2_alg».proof.Proof.Gen.ReferenceIdeal.Read
import proofs.«135860_j77386720739714_2_alg».proof.Proof.Spec
import Idealize.ShloMosaic.Lib.IdealHost

noncomputable section

open scoped BigOperators

namespace Cert.Gcn.Ref

open Cert.ReferenceIdeal Cert.ReferenceIdeal.Read Idealize.ShloMosaic Idealize.ShloMosaic.ValueIdx

variable (x0 : (⟨S1024x128, .f32⟩ : BufTy).Contents (Elt Ideal))
  (x1 : (⟨S128x128, .f32⟩ : BufTy).Contents (Elt Ideal))
  (x2 : (⟨S128, .f32⟩ : BufTy).Contents (Elt Ideal))
  (x3 : (⟨S128x1, .f32⟩ : BufTy).Contents (Elt Ideal))
  (x4 : (⟨S1, .f32⟩ : BufTy).Contents (Elt Ideal))
  (x5 : (⟨S128x128, .f32⟩ : BufTy).Contents (Elt Ideal))
  (x6 : (⟨S128, .f32⟩ : BufTy).Contents (Elt Ideal))

/-! ## The edge weights -/

/-- The absolute difference of rows i and j at feature d. -/
theorem absdiff_at (i j : Fin 1024) (d : Fin 128) :
    val_main_v5 (F := Ideal) x0 (ix3 i j d)
      = max (x0 (ix2 i d) - x0 (ix2 j d)) (-(x0 (ix2 i d) - x0 (ix2 j d))) := by
  have e1 : idx_main_v0 (idx_main_v2 (ix3 i j d)) = ix2 i d :=
    funext fun a => Fin.ext (by match a with | ⟨0, _⟩ => rfl | ⟨1, _⟩ => rfl)
  have e2 : idx_main_v1 (idx_main_v3 (ix3 i j d)) = ix2 j d :=
    funext fun a => Fin.ext (by match a with | ⟨0, _⟩ => rfl | ⟨1, _⟩ => rfl)
  rw [val_main_v5_apply, val_main_v4_apply, val_main_v2_apply, val_main_v3_apply, val_main_v0_apply,
    val_main_v1_apply, e1, e2]
  rfl

/-- The first layer before the bias: the absolute differences against column h of W1. -/
theorem layer1_at (i j : Fin 1024) (h : Fin 128) :
    val_main_v6 (F := Ideal) x0 x1 (ix3 i j h)
      = ∑ d : Fin 128, max (x0 (ix2 i d) - x0 (ix2 j d)) (-(x0 (ix2 i d) - x0 (ix2 j d))) * x1 (ix2 d h) := by
  refine (val_main_v6_apply x0 x1 (ix3 i j h)).trans (Finset.sum_congr rfl fun d _ => ?_)
  have el : lidx_main_v6 (ix3 i j h) d = ix3 i j d :=
    funext fun a => Fin.ext (by match a with | ⟨0, _⟩ => rfl | ⟨1, _⟩ => rfl | ⟨2, _⟩ => rfl)
  have er : ridx_main_v6 (ix3 i j h) d = ix2 d h :=
    funext fun a => Fin.ext (by match a with | ⟨0, _⟩ => rfl | ⟨1, _⟩ => rfl)
  rw [el, er, absdiff_at]

/-- The bias of the first layer, broadcast over the pairs. -/
theorem bias1_at (i j : Fin 1024) (h : Fin 128) :
    val_main_v8 (F := Ideal) x2 (ix3 i j h) = x2 (ix1 h) := by
  have e : idx_main_v7 (idx_main_v8 (ix3 i j h)) = ix1 h :=
    funext fun a => Fin.ext (by match a with | ⟨0, _⟩ => rfl)
  rw [val_main_v8_apply, val_main_v7_apply, e]

/-- The rectifier's zero, broadcast over the pairs. -/
theorem zero_at (i j : Fin 1024) (h : Fin 128) :
    val_main_call0_v0 (F := Ideal) (ix3 i j h) = Cert.Gcn.z0 := by
  rw [val_main_call0_v0_apply, val_main_call0_cst_apply]
  rfl

/-- Hidden unit h of the pair (i, j). -/
theorem hidden_at (i j : Fin 1024) (h : Fin 128) :
    val_main_v10 (F := Ideal) x0 x1 x2 (ix3 i j h)
      = Cert.Gcn.hidden (fun d => x0 (ix2 i d)) (fun d => x0 (ix2 j d)) (fun d h => x1 (ix2 d h))
          (fun h => x2 (ix1 h)) h := by
  rw [val_main_v10_apply, val_main_v9_apply, layer1_at, bias1_at, zero_at]
  rfl

/-- The second layer before the bias. -/
theorem layer2_at (i j : Fin 1024) :
    val_main_v12 (F := Ideal) x0 x1 x2 x3 (ix2 i j)
      = ∑ h : Fin 128, Cert.Gcn.hidden (fun d => x0 (ix2 i d)) (fun d => x0 (ix2 j d)) (fun d h => x1 (ix2 d h))
          (fun h => x2 (ix1 h)) h * x3 (ix2 h (0 : Fin 1)) := by
  have e : idx_main_v12 (ix2 i j) = ix3 i j (0 : Fin 1) :=
    funext fun a => Fin.ext (by
      have hi : i.val < 1024 := i.isLt
      have hj : j.val < 1024 := j.isLt
      match a with
      | ⟨0, _⟩ => show (i.val * 1024 + j.val) / 1024 = i.val; omega
      | ⟨1, _⟩ => show (i.val * 1024 + j.val) / 1 % 1024 = j.val; omega
      | ⟨2, _⟩ => rfl)
  rw [val_main_v12_apply, e]
  refine (val_main_v11_apply x0 x1 x2 x3 (ix3 i j (0 : Fin 1))).trans (Finset.sum_congr rfl fun h _ => ?_)
  have el : lidx_main_v11 (ix3 i j (0 : Fin 1)) h = ix3 i j h :=
    funext fun a => Fin.ext (by match a with | ⟨0, _⟩ => rfl | ⟨1, _⟩ => rfl | ⟨2, _⟩ => rfl)
  have er : ridx_main_v11 (ix3 i j (0 : Fin 1)) h = ix2 h (0 : Fin 1) :=
    funext fun a => Fin.ext (by match a with | ⟨0, _⟩ => rfl | ⟨1, _⟩ => rfl)
  rw [el, er, hidden_at]

/-- The bias of the second layer: the one element of b2, broadcast over the pairs. -/
theorem bias2_at (i j : Fin 1024) :
    val_main_v14 (F := Ideal) x4 (ix2 i j) = x4 (ix1 (0 : Fin 1)) := by
  rw [val_main_v14_apply]
  unfold val_main_v13
  refine shapeCast_apply x4 _ _ (ix1 (0 : Fin 1)) ?_
  rw [Shape.rowMajor_val_one]
  rfl

/-- The literal one, broadcast over the pairs (numerator). -/
theorem one_num_at (i j : Fin 1024) : val_main_v20 (F := Ideal) (ix2 i j) = 1 := by
  rw [val_main_v20_apply, val_main_cst_0_apply]
  exact Ideal.ofBits_one_f32

/-- The literal one, broadcast over the pairs (denominator). -/
theorem one_den_at (i j : Fin 1024) : val_main_v18 (F := Ideal) (ix2 i j) = 1 := by
  rw [val_main_v18_apply, val_main_cst_apply]
  exact Ideal.ofBits_one_f32

/-- The reference's adjacency at (i, j) is the specification's edge weight of rows i and j. -/
theorem ref_adj (x0 : (⟨S1024x128, .f32⟩ : BufTy).Contents (Elt Ideal))
    (x1 : (⟨S128x128, .f32⟩ : BufTy).Contents (Elt Ideal))
    (x2 : (⟨S128, .f32⟩ : BufTy).Contents (Elt Ideal))
    (x3 : (⟨S128x1, .f32⟩ : BufTy).Contents (Elt Ideal))
    (x4 : (⟨S1, .f32⟩ : BufTy).Contents (Elt Ideal)) (i j : Fin 1024) :
    val_main_v21 (F := Ideal) x0 x1 x2 x3 x4 (ix2 i j)
      = Cert.Gcn.adjEntry (fun d => x0 (ix2 i d)) (fun d => x0 (ix2 j d)) (fun d h => x1 (ix2 d h))
          (fun h => x2 (ix1 h)) (fun h => x3 (ix2 h (0 : Fin 1))) (x4 (ix1 (0 : Fin 1))) := by
  rw [val_main_v21_apply, val_main_v19_apply, val_main_v17_apply, val_main_v16_apply, val_main_v15_apply,
    one_num_at, one_den_at, layer2_at, bias2_at]
  rfl

/-! ## The output -/

/-- The inverse square root of row r's degree; the degree is the sum of the row from the literal zero. -/
theorem dinv_at (r : Fin 1024) :
    val_main_v23 (F := Ideal) x0 x1 x2 x3 x4 (ix1 r)
      = Cert.Gcn.dinv (fun r j => val_main_v21 (F := Ideal) x0 x1 x2 x3 x4 (ix2 r j)) r := by
  have hs : (∑ k : Fin 1024, val_main_v21 (F := Ideal) x0 x1 x2 x3 x4 (idx_main_v22 (ix1 r) k))
      = ∑ k : Fin 1024, val_main_v21 (F := Ideal) x0 x1 x2 x3 x4 (ix2 r k) :=
    Finset.sum_congr rfl fun k _ => congrArg (val_main_v21 (F := Ideal) x0 x1 x2 x3 x4)
      (funext fun a => Fin.ext (by match a with | ⟨0, _⟩ => rfl | ⟨1, _⟩ => rfl))
  rw [val_main_v23_apply, val_main_v22_apply, hs, val_main_cst_1_apply]
  show Ideal.rsqrt (Ideal.ofBits .f32 0x00000000#32 + _) = Ideal.rsqrt _
  rw [Ideal.ofBits_zero_f32, zero_add]

/-- The normalised weight of the pair (i, k). -/
theorem norm_at (i k : Fin 1024) :
    val_main_v29 (F := Ideal) x0 x1 x2 x3 x4 (ix2 i k)
      = Cert.Gcn.dinv (fun r j => val_main_v21 (F := Ideal) x0 x1 x2 x3 x4 (ix2 r j)) i
          * val_main_v21 (F := Ideal) x0 x1 x2 x3 x4 (ix2 i k)
          * Cert.Gcn.dinv (fun r j => val_main_v21 (F := Ideal) x0 x1 x2 x3 x4 (ix2 r j)) k := by
  have e1 : idx_main_v24 (idx_main_v25 (ix2 i k)) = ix1 i :=
    funext fun a => Fin.ext (by match a with | ⟨0, _⟩ => rfl)
  have e2 : idx_main_v27 (idx_main_v28 (ix2 i k)) = ix1 k :=
    funext fun a => Fin.ext (by match a with | ⟨0, _⟩ => rfl)
  rw [val_main_v29_apply, val_main_v26_apply, val_main_v25_apply, val_main_v24_apply, val_main_v28_apply,
    val_main_v27_apply, e1, e2, dinv_at, dinv_at]
  rfl

/-- The projected features of node k at output o. -/
theorem proj_at (k : Fin 1024) (o : Fin 128) :
    val_main_v30 (F := Ideal) x0 x5 (ix2 k o) = ∑ d : Fin 128, x0 (ix2 k d) * x5 (ix2 d o) := by
  refine (val_main_v30_apply x0 x5 (ix2 k o)).trans (Finset.sum_congr rfl fun d _ => ?_)
  have el : lidx_main_v30 (ix2 k o) d = ix2 k d :=
    funext fun a => Fin.ext (by match a with | ⟨0, _⟩ => rfl | ⟨1, _⟩ => rfl)
  have er : ridx_main_v30 (ix2 k o) d = ix2 d o :=
    funext fun a => Fin.ext (by match a with | ⟨0, _⟩ => rfl | ⟨1, _⟩ => rfl)
  rw [el, er]

/-- The output bias, broadcast over the nodes. -/
theorem bias_out_at (i : Fin 1024) (o : Fin 128) :
    val_main_v33 (F := Ideal) x6 (ix2 i o) = x6 (ix1 o) := by
  have e : idx_main_v32 (idx_main_v33 (ix2 i o)) = ix1 o :=
    funext fun a => Fin.ext (by match a with | ⟨0, _⟩ => rfl)
  rw [val_main_v33_apply, val_main_v32_apply, e]

/-- The entry before the rectifier. -/
theorem pre_at (i : Fin 1024) (o : Fin 128) :
    val_main_v34 (F := Ideal) x0 x1 x2 x3 x4 x5 x6 (ix2 i o)
      = Cert.Gcn.pre (fun r j => val_main_v21 (F := Ideal) x0 x1 x2 x3 x4 (ix2 r j)) (fun j d => x0 (ix2 j d))
          (fun d o' => x5 (ix2 d o')) (fun o' => x6 (ix1 o')) i o := by
  have hs : val_main_v31 (F := Ideal) x0 x1 x2 x3 x4 x5 (ix2 i o)
      = ∑ k : Fin 1024,
          (Cert.Gcn.dinv (fun r j => val_main_v21 (F := Ideal) x0 x1 x2 x3 x4 (ix2 r j)) i
            * val_main_v21 (F := Ideal) x0 x1 x2 x3 x4 (ix2 i k)
            * Cert.Gcn.dinv (fun r j => val_main_v21 (F := Ideal) x0 x1 x2 x3 x4 (ix2 r j)) k)
          * ∑ d : Fin 128, x0 (ix2 k d) * x5 (ix2 d o) := by
    refine (val_main_v31_apply x0 x1 x2 x3 x4 x5 (ix2 i o)).trans (Finset.sum_congr rfl fun k _ => ?_)
    have el : lidx_main_v31 (ix2 i o) k = ix2 i k :=
      funext fun a => Fin.ext (by match a with | ⟨0, _⟩ => rfl | ⟨1, _⟩ => rfl)
    have er : ridx_main_v31 (ix2 i o) k = ix2 k o :=
      funext fun a => Fin.ext (by match a with | ⟨0, _⟩ => rfl | ⟨1, _⟩ => rfl)
    rw [el, er, norm_at, proj_at]
  rw [val_main_v34_apply, hs, bias_out_at]
  rfl

/-- The comparison's zero, broadcast over the entries. -/
theorem zero_out_at (i : Fin 1024) (o : Fin 128) :
    val_main_v35 (F := Ideal) (ix2 i o) = Cert.Gcn.z0 := by
  rw [val_main_v35_apply, val_main_cst_2_apply]
  rfl

/-- The rectifier's slope, broadcast over the entries. -/
theorem slope_at (i : Fin 1024) (o : Fin 128) :
    val_main_v37 (F := Ideal) (ix2 i o) = Cert.Gcn.slope := by
  rw [val_main_v37_apply, val_main_cst_3_apply]
  rfl

/-- The reference's output at (i, o) is the specification's entry over the reference's own adjacency. -/
theorem ref_out (x0 : (⟨S1024x128, .f32⟩ : BufTy).Contents (Elt Ideal))
    (x1 : (⟨S128x128, .f32⟩ : BufTy).Contents (Elt Ideal))
    (x2 : (⟨S128, .f32⟩ : BufTy).Contents (Elt Ideal))
    (x3 : (⟨S128x1, .f32⟩ : BufTy).Contents (Elt Ideal))
    (x4 : (⟨S1, .f32⟩ : BufTy).Contents (Elt Ideal))
    (x5 : (⟨S128x128, .f32⟩ : BufTy).Contents (Elt Ideal))
    (x6 : (⟨S128, .f32⟩ : BufTy).Contents (Elt Ideal)) (i : Fin 1024) (o : Fin 128) :
    val_main_v39 (F := Ideal) x0 x1 x2 x3 x4 x5 x6 (ix2 i o)
      = Cert.Gcn.gcnEntry (fun r j => val_main_v21 (F := Ideal) x0 x1 x2 x3 x4 (ix2 r j)) (fun j d => x0 (ix2 j d))
          (fun d o' => x5 (ix2 d o')) (fun o' => x6 (ix1 o')) i o := by
  rw [val_main_v39_apply, val_main_v36_apply, val_main_v38_apply, zero_out_at, slope_at, pre_at]
  rfl

end Cert.Gcn.Ref

end
-- ==== Proof.RefRun.lean ====
/-
  Every execution of the reference program ends with the specification's arrays.

  The output buffer holds, at (i, o), the layer's entry over the matrix of edge weights of the node features; the
  adjacency buffer holds, at (r, s), the edge weight of rows r and s; the seven argument buffers are unchanged. The
  program's run leaves each result at the composed term of its operations, that term is the last stage of the
  entry-by-entry reading, and the stages at an index are the specification's entries.
-/
import proofs.«135860_j77386720739714_2_alg».proof.Proof.RefIsSpec
import proofs.«135860_j77386720739714_2_alg».proof.Proof.Gen.ReferenceIdeal.Read

noncomputable section

open scoped BigOperators

namespace Cert.Gcn.RefRun

open Cert.ReferenceIdeal Cert.ReferenceIdeal.Gen Idealize.ShloMosaic Idealize.ShloMosaic.TcCoe Idealize.SL.Sem Idealize.ShloMosaic.ValueIdx

/-- The reference's run, entry by entry: the output is the layer over the edge weights, the adjacency is the edge
    weights, and the arguments are unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      (∀ (i : Fin 1024) (o : Fin 128), r.2.mem ((c.tc : Thread nD τ).loc main_v39) (ix2 i o)
        = Cert.Gcn.gcnEntry
            (fun r' j => Cert.Gcn.adjEntry (fun d => m ((c.tc : Thread nD τ).loc main_arg0) (ix2 r' d))
              (fun d => m ((c.tc : Thread nD τ).loc main_arg0) (ix2 j d))
              (fun d h => m ((c.tc : Thread nD τ).loc main_arg1) (ix2 d h))
              (fun h => m ((c.tc : Thread nD τ).loc main_arg2) (ix1 h))
              (fun h => m ((c.tc : Thread nD τ).loc main_arg3) (ix2 h (0 : Fin 1)))
              (m ((c.tc : Thread nD τ).loc main_arg4) (ix1 (0 : Fin 1))))
            (fun j d => m ((c.tc : Thread nD τ).loc main_arg0) (ix2 j d))
            (fun d o' => m ((c.tc : Thread nD τ).loc main_arg5) (ix2 d o'))
            (fun o' => m ((c.tc : Thread nD τ).loc main_arg6) (ix1 o')) i o)
      ∧ (∀ (r' s : Fin 1024), r.2.mem ((c.tc : Thread nD τ).loc main_v21) (ix2 r' s)
        = Cert.Gcn.adjEntry (fun d => m ((c.tc : Thread nD τ).loc main_arg0) (ix2 r' d))
            (fun d => m ((c.tc : Thread nD τ).loc main_arg0) (ix2 s d))
            (fun d h => m ((c.tc : Thread nD τ).loc main_arg1) (ix2 d h))
            (fun h => m ((c.tc : Thread nD τ).loc main_arg2) (ix1 h))
            (fun h => m ((c.tc : Thread nD τ).loc main_arg3) (ix2 h (0 : Fin 1)))
            (m ((c.tc : Thread nD τ).loc main_arg4) (ix1 (0 : Fin 1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => by
    obtain ⟨h39, h21, h0, h1, h2, h3, h4, h5, h6⟩ := h c
    refine ⟨fun i o => ?_, fun r' s => ?_, h0, h1, h2, h3, h4, h5, h6⟩
    · -- the output: the run's term is the last stage, the stage is the layer's entry over the stage of the
      -- adjacency, and that stage is the edge weight
      refine (congrFun h39 (ix2 i o)).trans ?_
      refine (congrFun (Cert.ReferenceIdeal.Read.val_main_v39_eq m c) (ix2 i o)).trans ?_
      refine (Cert.Gcn.Ref.ref_out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) i o).trans ?_
      refine congrArg (fun M => Cert.Gcn.gcnEntry M (fun j d => m ((c.tc : Thread nD τ).loc main_arg0) (ix2 j d))
        (fun d o' => m ((c.tc : Thread nD τ).loc main_arg5) (ix2 d o')) (fun o' => m ((c.tc : Thread nD τ).loc main_arg6) (ix1 o')) i o) ?_
      exact funext fun r' => funext fun j =>
        Cert.Gcn.Ref.ref_adj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) r' j
    · -- the adjacency: the run's term is the stage, and the stage is the edge weight
      refine (congrFun h21 (ix2 r' s)).trans ?_
      refine (congrFun (Cert.ReferenceIdeal.Read.val_main_v21_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (ix2 r' s)).trans ?_
      exact Cert.Gcn.Ref.ref_adj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) r' s)
    (Cert.ReferenceIdeal.Value.run (F := Ideal) m ρ)

end Cert.Gcn.RefRun

end
-- ==== Proof.lean ====
/-
  The certificate of a graph-convolution layer with learned dense adjacency: a kernel of two pipelined regions against
  its plain reference, equal on the extended reals.

  Both programs compute, from node features x, an edge weight A r s = logistic(w2 · max(W1ᵀ|x r − x s| + b1, 0) + b2) for
  every pair of nodes, and then out = leaky(D^(-1/2) A D^(-1/2) (x Wg) + bg) with D the row sums of A.  The kernel tiles
  A into [64, 128] blocks in a first region (two of its windows reading the one feature array) and computes the layer in
  a second, one-point region; the reference broadcasts over all pairs at once.  At the ideal values a change of float
  format is the identity, the matrix unit's product and the host's dot_general are the same sums, a lane reduction and
  the host's reduction are the same sums (the host's from the literal zero), the logistic operation is by definition
  1 / (1 + exp(−v)) as the reference spells it, and both sides group the normalisation as (d r · A r s) · d s: so the
  two results agree entry by entry with no law that needs finiteness.  The three frames: each kernel program runs as
  its host lines and its two regions, the argument arrays untouched; the reference runs as a line of host operations.
  The idealization rewrote nothing, so what it must preserve is vacuous.
-/
import proofs.«135860_j77386720739714_2_alg».proof.Defs
import proofs.«135860_j77386720739714_2_alg».proof.Proof.Gen.Kernel
import proofs.«135860_j77386720739714_2_alg».proof.Proof.Gen.KernelIdeal
import proofs.«135860_j77386720739714_2_alg».proof.Proof.Gen.ReferenceIdeal
import proofs.«135860_j77386720739714_2_alg».proof.Proof.Gen.ReferenceIdeal.Run
import proofs.«135860_j77386720739714_2_alg».proof.Proof.Gen.ReferenceIdeal.Read
import proofs.«135860_j77386720739714_2_alg».proof.Proof.Gen.Pre_finite_inputs
import proofs.«135860_j77386720739714_2_alg».proof.Proof.RunB
import proofs.«135860_j77386720739714_2_alg».proof.Proof.RunI
import proofs.«135860_j77386720739714_2_alg».proof.Proof.KernelValue
import proofs.«135860_j77386720739714_2_alg».proof.Proof.RefRun
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments as launched. -/
theorem frame_p : Cert.frame_Kernel := fun m ρ _ => Cert.Kernel.Fr.frame m ρ
/-- The idealized kernel runs and leaves its arguments as launched. -/
theorem frame_pi : Cert.frame_KernelIdeal := fun m ρ _ => Cert.KernelIdeal.Fr.frame m ρ
/-- The reference runs and leaves its arguments as launched: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The two idealized programs, from memories agreeing on the arguments, end with equal results: each result entry is
    the specification's entry of the shared arguments on both sides. -/
theorem algebraic : Cert.algebraic_KernelIdeal_ReferenceIdeal := by
  intro m ρ m' ρ' _ hagree
  refine ⟨fun c => Cert.KernelIdeal.Fr.M3 m ρ c (Proc.devRef .tc Cert.KernelIdeal.main_v6),
    fun c => Cert.KernelIdeal.Fr.M3 m ρ c (Proc.devRef .tc Cert.KernelIdeal.main_v5), ?_, ?_⟩
  · refine (θ_run Cert.KernelIdeal.defs _ _).mono (fun r h c => ?_) (Cert.KernelIdeal.Fr.run_main m ρ)
    exact ⟨h c _ (Cert.KernelIdeal.Fr.mem_uc Cert.KernelIdeal.main_v6 (by decide)),
      h c _ (Cert.KernelIdeal.Fr.mem_uc Cert.KernelIdeal.main_v5 (by decide)),
      (h c _ (Cert.KernelIdeal.Fr.mem_uc Cert.KernelIdeal.main_arg0 (by decide))).trans (Cert.KernelIdeal.Fr.M3_arg m ρ c Cert.KernelIdeal.main_arg0 (by decide) (by decide) (by decide)),
      (h c _ (Cert.KernelIdeal.Fr.mem_uc Cert.KernelIdeal.main_arg1 (by decide))).trans (Cert.KernelIdeal.Fr.M3_arg m ρ c Cert.KernelIdeal.main_arg1 (by decide) (by decide) (by decide)),
      (h c _ (Cert.KernelIdeal.Fr.mem_uc Cert.KernelIdeal.main_arg2 (by decide))).trans (Cert.KernelIdeal.Fr.M3_arg m ρ c Cert.KernelIdeal.main_arg2 (by decide) (by decide) (by decide)),
      (h c _ (Cert.KernelIdeal.Fr.mem_uc Cert.KernelIdeal.main_arg3 (by decide))).trans (Cert.KernelIdeal.Fr.M3_arg m ρ c Cert.KernelIdeal.main_arg3 (by decide) (by decide) (by decide)),
      (h c _ (Cert.KernelIdeal.Fr.mem_uc Cert.KernelIdeal.main_arg4 (by decide))).trans (Cert.KernelIdeal.Fr.M3_arg m ρ c Cert.KernelIdeal.main_arg4 (by decide) (by decide) (by decide)),
      (h c _ (Cert.KernelIdeal.Fr.mem_uc Cert.KernelIdeal.main_arg5 (by decide))).trans (Cert.KernelIdeal.Fr.M3_arg m ρ c Cert.KernelIdeal.main_arg5 (by decide) (by decide) (by decide)),
      (h c _ (Cert.KernelIdeal.Fr.mem_uc Cert.KernelIdeal.main_arg6 (by decide))).trans (Cert.KernelIdeal.Fr.M3_arg m ρ c Cert.KernelIdeal.main_arg6 (by decide) (by decide) (by decide))⟩
  · refine (θ_run Cert.ReferenceIdeal.defs _ _).mono (fun r h c => ?_) (Cert.Gcn.RefRun.ref_run m' ρ')
    obtain ⟨hout, hadj, hargs⟩ := h c
    obtain ⟨g0, g1, g2, g3, g4, g5, g6⟩ := hagree c
    refine ⟨?_, ?_, hargs⟩
    · funext i
      obtain ⟨a, b, rfl⟩ : ∃ (a : Fin 1024) (b : Fin 128), i = ix2 a b := ⟨i 0, i 1, eq_ix2 i⟩
      refine (hout a b).trans ((Cert.KernelIdeal.Val.out_value m ρ c a b).trans ?_).symm
      unfold Cert.KernelIdeal.Val.adjOf
      rw [g0, g1, g2, g3, g4, g5, g6]
    · funext i
      obtain ⟨a, b, rfl⟩ : ∃ (a b : Fin 1024), i = ix2 a b := ⟨i 0, i 1, eq_ix2 i⟩
      refine (hadj a b).trans ((Cert.KernelIdeal.Val.adj_value m ρ c a b).trans ?_).symm
      unfold Cert.KernelIdeal.Val.adjOf
      rw [g0, g1, g2, g3, g4]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
